-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1048576 : Shape := ⟨2, ![32, 1048576]⟩
abbrev S_ : Shape := ⟨0, ![]⟩

class Facts : Prop where
  bcast_S_S32x1048576 : S_.BroadcastsInDim S32x1048576 (![] : Fin 0 → Fin S32x1048576.rank)
  reducesTo_S32x1048576_S_d0_1 : S32x1048576.ReducesTo [0, 1] S_
  h_S_ : 0 < S_.numel

variable [Facts]

def fn {F : FTy → Type} [FloatOps F] (main_arg0 : FVec F S32x1048576 .f32) (main_arg1 : FVec F S32x1048576 .f32) (main_arg2 : FVec F S32x1048576 .f32) : IVec S_ 1 :=
  let main_v0 : FVec F S32x1048576 .f32 := Host.absf main_arg0
  let main_cst : FVec F S_ .f32 := constant S_ .f32 0x7F800000#32
  let main_v1 : FVec F S32x1048576 .f32 := broadcastInDim S32x1048576 ![] bcast_S_S32x1048576 main_cst
  let main_v2 : IVec S32x1048576 1 := cmpf .olt main_v0 main_v1
  let main_c : IVec S_ 1 := constantI S_ 1 1#1
  let main_v3 : IVec S_ 1 := (fun x v => Host.reduce IntOp.andi x v reducesTo_S32x1048576_S_d0_1 h_S_) main_v2 main_c
  let main_v4 : FVec F S32x1048576 .f32 := Host.absf main_arg1
  let main_cst_0 : FVec F S_ .f32 := constant S_ .f32 0x7F800000#32
  let main_v5 : FVec F S32x1048576 .f32 := broadcastInDim S32x1048576 ![] bcast_S_S32x1048576 main_cst_0
  let main_v6 : IVec S32x1048576 1 := cmpf .olt main_v4 main_v5
  let main_c_1 : IVec S_ 1 := constantI S_ 1 1#1
  let main_v7 : IVec S_ 1 := (fun x v => Host.reduce IntOp.andi x v reducesTo_S32x1048576_S_d0_1 h_S_) main_v6 main_c_1
  let main_v8 : IVec S_ 1 := andi main_v3 main_v7
  let main_v9 : FVec F S32x1048576 .f32 := Host.absf main_arg2
  let main_cst_2 : FVec F S_ .f32 := constant S_ .f32 0x7F800000#32
  let main_v10 : FVec F S32x1048576 .f32 := broadcastInDim S32x1048576 ![] bcast_S_S32x1048576 main_cst_2
  let main_v11 : IVec S32x1048576 1 := cmpf .olt main_v9 main_v10
  let main_c_3 : IVec S_ 1 := constantI S_ 1 1#1
  let main_v12 : IVec S_ 1 := (fun x v => Host.reduce IntOp.andi x v reducesTo_S32x1048576_S_d0_1 h_S_) main_v11 main_c_3
  let main_v13 : IVec S_ 1 := andi main_v8 main_v12
  main_v13
-- ==== Kernel.lean ====
abbrev S32x1048576 : Shape := ⟨2, ![32, 1048576]⟩
abbrev S1x128 : Shape := ⟨2, ![1, 128]⟩
abbrev S32x16384 : Shape := ⟨2, ![32, 16384]⟩
abbrev S32 : Shape := ⟨1, ![32]⟩
abbrev S32x1 : Shape := ⟨2, ![32, 1]⟩
abbrev S1 : Shape := ⟨1, ![1]⟩
abbrev S1x1 : Shape := ⟨2, ![1, 1]⟩
abbrev S_ : Shape := ⟨0, ![]⟩
abbrev S2 : Shape := ⟨1, ![2]⟩
abbrev S1x10 : Shape := ⟨2, ![1, 10]⟩
abbrev S10 : Shape := ⟨1, ![10]⟩

abbrev nBuf : Space → Nat
  | .hbm => 65
  | .vmem => 24
  | .smem => 0
  | _ => 0

abbrev bufTy : (tb : Table) → Fin (tcTables nBuf tb) → BufTy
  | .hbm, ⟨0, _⟩ => ⟨S32x1048576, .f32⟩
  | .hbm, ⟨1, _⟩ => ⟨S32x1048576, .f32⟩
  | .hbm, ⟨2, _⟩ => ⟨S32x1048576, .f32⟩
  | .hbm, ⟨3, _⟩ => ⟨S1x128, .f32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S_, .f32⟩
  | .hbm, ⟨8, _⟩ => ⟨S1x1, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x128, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S1x128, .f32⟩
  | .hbm, ⟨26, _⟩ => ⟨S1x128, .f32⟩
  | .hbm, ⟨27, _⟩ => ⟨S1x10, .f32⟩
  | .hbm, ⟨28, _⟩ => ⟨S10, .f32⟩
  | .hbm, ⟨29, _⟩ => ⟨S_, .f32⟩
  | .hbm, ⟨30, _⟩ => ⟨S10, .f32⟩
  | .hbm, ⟨31, _⟩ => ⟨S10, .i1⟩
  | .hbm, ⟨32, _⟩ => ⟨S10, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1x128, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S1x128, .f32⟩
  | .hbm, ⟨45, _⟩ => ⟨S_, .i32⟩
  | .hbm, ⟨46, _⟩ => ⟨S1, .i32⟩
  | .hbm, ⟨47, _⟩ => ⟨S_, .i32⟩
  | .hbm, ⟨48, _⟩ => ⟨S1, .i32⟩
  | .hbm, ⟨49, _⟩ => ⟨S2, .i32⟩
  | .hbm, ⟨50, _⟩ => ⟨S1x128, .f32⟩
  | .hbm, ⟨51, _⟩ => ⟨S_, .i32⟩
  | .hbm, ⟨52, _⟩ => ⟨S1, .i32⟩
  | .hbm, ⟨53, _⟩ => ⟨S_, .i32⟩
  | .hbm, ⟨54, _⟩ => ⟨S1, .i32⟩
  | .hbm, ⟨55, _⟩ => ⟨S2, .i32⟩
  | .hbm, ⟨56, _⟩ => ⟨S1x128, .f32⟩
  | .hbm, ⟨57, _⟩ => ⟨S1x128, .f32⟩
  | .hbm, ⟨58, _⟩ => ⟨S1x1, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .local _ .vmem, ⟨0, _⟩ => ⟨S32x16384, .f32⟩
  | .local _ .vmem, ⟨1, _⟩ => ⟨S32x16384, .f32⟩
  | .local _ .vmem, ⟨2, _⟩ => ⟨S32x16384, .f32⟩
  | .local _ .vmem, ⟨3, _⟩ => ⟨S32x16384, .f32⟩
  | .local _ .vmem, ⟨4, _⟩ => ⟨S32x16384, .f32⟩
  | .local _ .vmem, ⟨5, _⟩ => ⟨S32x16384, .f32⟩
  | .local _ .vmem, ⟨6, _⟩ => ⟨S1x128, .f32⟩
  | .local _ .vmem, ⟨7, _⟩ => ⟨S32x16384, .f32⟩
  | .local _ .vmem, ⟨8, _⟩ => ⟨S32x16384, .f32⟩
  | .local _ .vmem, ⟨9, _⟩ => ⟨S32x16384, .f32⟩
  | .local _ .vmem, ⟨10, _⟩ => ⟨S32x16384, .f32⟩
  | .local _ .vmem, ⟨11, _⟩ => ⟨S32x16384, .f32⟩
  | .local _ .vmem, ⟨12, _⟩ => ⟨S32x16384, .f32⟩
  | .local _ .vmem, ⟨13, _⟩ => ⟨S1x128, .f32⟩
  | .local _ .vmem, ⟨14, _⟩ => ⟨S1x128, .f32⟩
  | .local _ .vmem, ⟨15, _⟩ => ⟨S32x16384, .f32⟩
  | .local _ .vmem, ⟨16, _⟩ => ⟨S32x16384, .f32⟩
  | .local _ .vmem, ⟨17, _⟩ => ⟨S32x16384, .f32⟩
  | .local _ .vmem, ⟨18, _⟩ => ⟨S32x16384, .f32⟩
  | .local _ .vmem, ⟨19, _⟩ => ⟨S32x16384, .f32⟩
  | .local _ .vmem, ⟨20, _⟩ => ⟨S32x16384, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | _, _ => ⟨S32x1048576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_c_7 : Ref sig .tc := ⟨.hbm, 39, rfl⟩
abbrev main_v27 : Ref sig .tc := ⟨.hbm, 40, rfl⟩
abbrev main_c_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_9 : Ref sig .tc := ⟨.hbm, 45, rfl⟩
abbrev main_v31 : Ref sig .tc := ⟨.hbm, 46, rfl⟩
abbrev main_c_10 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_11 : Ref sig .tc := ⟨.hbm, 51, rfl⟩
abbrev main_v35 : Ref sig .tc := ⟨.hbm, 52, rfl⟩
abbrev main_c_12 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_13 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S32x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S32x16384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S32x16384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S32x16384 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S32x16384 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  inb_S1x128_S1x128_0_0 : ∀ a, (![0, 0] : Fin 2 → Nat) a + S1x128.size a ≤ S1x128.size a
  h_S1x128 : 0 < S1x128.numel
  inb_S32x16384_S32x16384_0_0 : ∀ a, (![0, 0] : Fin 2 → Nat) a + S32x16384.size a ≤ S32x16384.size a
  h_S32x16384 : 0 < S32x16384.numel
  reduces_S32x16384_S32 : S32x16384.Reduces [1] S32
  shapeCasts_S32_S32x1 : S32.ShapeCasts S32x1
  reduces_S32x1_S1 : S32x1.Reduces [0] S1
  shapeCasts_S1_S1x1 : S1.ShapeCasts S1x1
  natLt_1_32 : 1 < 32
  iota_S1x128_d1_w32 : S1x128.Iotas .tc 32 [1]
  shapeCasts_S1x1_S1x1 : S1x1.ShapeCasts S1x1
  broadcasts_S1x1_S1x128 : S1x1.Broadcasts S1x128
  shapeCasts_S1x128_S1x128 : S1x128.ShapeCasts S1x128
  slices_S1x128_S1x1_0_0 : S1x128.Slices ![0, 0] S1x1
  shapeCasts_S1x1_S_ : S1x1.ShapeCasts S_
  slices_S1x128_S1x1_0_1 : S1x128.Slices ![0, 1] S1x1
  slices_S1x128_S1x1_0_2 : S1x128.Slices ![0, 2] S1x1
  slices_S1x128_S1x1_0_3 : S1x128.Slices ![0, 3] S1x1
  bcast_S_S1x128 : S_.BroadcastsInDim S1x128 (![] : Fin 0 → Fin S1x128.rank)
  bcast_S_S1 : S_.BroadcastsInDim S1 (![] : Fin 0 → Fin S1.rank)
  concatenates_S1_S1_S2_d0 : Shape.Concatenates [S1, S1] S2 0
  inb_S1x128_S1x1_0_0 : ∀ a, (![0, 0] : Fin 2 → Nat) a + S1x1.size a ≤ S1x128.size a
  h_S1x1 : 0 < S1x1.numel
  inpos_S1x1_p0_0 : ∀ a, (![0, 0] : Fin 2 → Nat) a < S1x1.size a
  slices_S1x128_S1x10_0_0 : S1x128.Slices ![0, 0] S1x10
  shapeCasts_S1x10_S10 : S1x10.ShapeCasts S10
  bcast_S_S10 : S_.BroadcastsInDim S10 (![] : Fin 0 → Fin S10.rank)
  reducesTo_S10_S_d0 : S10.ReducesTo [0] S_
  h_S_ : 0 < S_.numel
  inb_S1x128_S1x1_0_1 : ∀ a, (![0, 1] : Fin 2 → Nat) a + S1x1.size a ≤ S1x128.size a
  inb_S1x128_S1x1_0_2 : ∀ a, (![0, 2] : Fin 2 → Nat) a + S1x1.size a ≤ S1x128.size a
  slices_S1x128_o0_0_S1x1 : S1x128.Slices ![0, 0] S1x1
  slices_S1x128_o0_1_S1x1 : S1x128.Slices ![0, 1] S1x1
  slices_S1x128_o0_2_S1x1 : S1x128.Slices ![0, 2] S1x1
  slices_S1x128_o0_3_S1x1 : S1x128.Slices ![0, 3] S1x1
  slices_S1x128_o0_4_S1x1 : S1x128.Slices ![0, 4] S1x1
  slices_S1x128_o0_5_S1x1 : S1x128.Slices ![0, 5] S1x1
  slices_S1x128_o0_6_S1x1 : S1x128.Slices ![0, 6] S1x1
  slices_S1x128_o0_7_S1x1 : S1x128.Slices ![0, 7] S1x1
  slices_S1x128_o0_8_S1x1 : S1x128.Slices ![0, 8] S1x1
  slices_S1x128_o0_9_S1x1 : S1x128.Slices ![0, 9] S1x1
  scatter_S1x128_S2_S__n_01_01_0_wf : ScatterDims.WF S1x128 S2 S_ [] [0, 1] [0, 1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x16384.size a ≤ S32x1048576.size a
  hwx0_0 : ∀ i : grid0.Coords, EltTy.bits .f32 = 32 ∨ (Rect.block (s := S32x1048576) S32x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x16384.size a ≤ S32x1048576.size a
  hwx0_1 : ∀ i : grid0.Coords, EltTy.bits .f32 = 32 ∨ (Rect.block (s := S32x1048576) S32x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x16384.size a ≤ S32x1048576.size a
  hwx0_2 : ∀ i : grid0.Coords, EltTy.bits .f32 = 32 ∨ (Rect.block (s := S32x1048576) S32x16384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x16384.size a ≤ S32x1048576.size a
  hwx1_0 : ∀ i : grid1.Coords, EltTy.bits .f32 = 32 ∨ (Rect.block (s := S32x1048576) S32x16384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x16384.size a ≤ S32x1048576.size a
  hwx1_1 : ∀ i : grid1.Coords, EltTy.bits .f32 = 32 ∨ (Rect.block (s := S32x1048576) S32x16384.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x16384.size a ≤ S32x1048576.size a
  hwx1_2 : ∀ i : grid1.Coords, EltTy.bits .f32 = 32 ∨ (Rect.block (s := S32x1048576) S32x16384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x16384.size a ≤ S32x1048576.size a
  hwx2_0 : ∀ i : grid2.Coords, EltTy.bits .f32 = 32 ∨ (Rect.block (s := S32x1048576) S32x16384.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S32x16384.size a ≤ S32x1048576.size a
  hwx2_1 : ∀ i : grid2.Coords, EltTy.bits .f32 = 32 ∨ (Rect.block (s := S32x1048576) S32x16384.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S32x16384.size a ≤ S32x1048576.size a
  hwx2_2 : ∀ i : grid2.Coords, EltTy.bits .f32 = 32 ∨ (Rect.block (s := S32x1048576) S32x16384.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)

variable [Facts₀]

def scatter_S1x128_S2_S__n_01_01_0 : ScatterDims S1x128 S2 S_ where
  updateWindowDims := []
  insertedWindowDims := [0, 1]
  scatterDimsToOperandDims := [0, 1]
  indexVectorDim := 0
  wf := scatter_S1x128_S2_S__n_01_01_0_wf

abbrev win0_0 : Pipeline.Window sig grid0 :=
  Pipeline.Window.ofSpec (Memref.whole main_arg0) S32x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S32x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S32x16384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S32x16384.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S32x16384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S32x16384.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S32x16384.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S1x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S32x1048576 : Shape := ⟨2, ![32, 1048576]⟩
abbrev S33554432 : Shape := ⟨1, ![33554432]⟩
abbrev S_ : Shape := ⟨0, ![]⟩
abbrev S10 : Shape := ⟨1, ![10]⟩
abbrev S33554432x1 : Shape := ⟨2, ![33554432, 1]⟩

abbrev nBuf : Space → Nat
  | .hbm => 99
  | .vmem => 0
  | .smem => 0
  | _ => 0

abbrev bufTy : (tb : Table) → Fin (tcTables nBuf tb) → BufTy
  | .hbm, ⟨0, _⟩ => ⟨S32x1048576, .f32⟩
  | .hbm, ⟨1, _⟩ => ⟨S32x1048576, .f32⟩
  | .hbm, ⟨2, _⟩ => ⟨S32x1048576, .f32⟩
  | .hbm, ⟨3, _⟩ => ⟨S33554432, .f32⟩
  | .hbm, ⟨4, _⟩ => ⟨S33554432, .f32⟩
  | .hbm, ⟨5, _⟩ => ⟨S33554432, .f32⟩
  | .hbm, ⟨6, _⟩ => ⟨S33554432, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S33554432, .f32⟩
  | .hbm, ⟨18, _⟩ => ⟨S33554432, .f32⟩
  | .hbm, ⟨19, _⟩ => ⟨S33554432, .f32⟩
  | .hbm, ⟨20, _⟩ => ⟨S33554432, .f32⟩
  | .hbm, ⟨21, _⟩ => ⟨S_, .f32⟩
  | .hbm, ⟨22, _⟩ => ⟨S33554432, .f32⟩
  | .hbm, ⟨23, _⟩ => ⟨S33554432, .i1⟩
  | .hbm, ⟨24, _⟩ => ⟨S33554432, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S33554432, .f32⟩
  | .hbm, ⟨31, _⟩ => ⟨S33554432, .i1⟩
  | .hbm, ⟨32, _⟩ => ⟨S33554432, .i1⟩
  | .hbm, ⟨33, _⟩ => ⟨S_, .f32⟩
  | .hbm, ⟨34, _⟩ => ⟨S33554432, .f32⟩
  | .hbm, ⟨35, _⟩ => ⟨S33554432, .f32⟩
  | .hbm, ⟨36, _⟩ => ⟨S33554432, .f32⟩
  | .hbm, ⟨37, _⟩ => ⟨S33554432, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S33554432, .i32⟩
  | .hbm, ⟨42, _⟩ => ⟨S33554432, .i32⟩
  | .hbm, ⟨43, _⟩ => ⟨S_, .i32⟩
  | .hbm, ⟨44, _⟩ => ⟨S33554432, .i32⟩
  | .hbm, ⟨45, _⟩ => ⟨S33554432, .i32⟩
  | .hbm, ⟨46, _⟩ => ⟨S_, .f32⟩
  | .hbm, ⟨47, _⟩ => ⟨S10, .f32⟩
  | .hbm, ⟨48, _⟩ => ⟨S33554432, .f32⟩
  | .hbm, ⟨49, _⟩ => ⟨S_, .i32⟩
  | .hbm, ⟨50, _⟩ => ⟨S33554432, .i32⟩
  | .hbm, ⟨51, _⟩ => ⟨S33554432, .i1⟩
  | .hbm, ⟨52, _⟩ => ⟨S_, .i32⟩
  | .hbm, ⟨53, _⟩ => ⟨S33554432, .i32⟩
  | .hbm, ⟨54, _⟩ => ⟨S33554432, .i32⟩
  | .hbm, ⟨55, _⟩ => ⟨S33554432, .i32⟩
  | .hbm, ⟨56, _⟩ => ⟨S33554432x1, .i32⟩
  | .hbm, ⟨57, _⟩ => ⟨S10, .f32⟩
  | .hbm, ⟨58, _⟩ => ⟨S_, .f32⟩
  | .hbm, ⟨59, _⟩ => ⟨S10, .f32⟩
  | .hbm, ⟨60, _⟩ => ⟨S10, .i1⟩
  | .hbm, ⟨61, _⟩ => ⟨S10, .i32⟩
  | .hbm, ⟨62, _⟩ => ⟨S_, .i32⟩
  | .hbm, ⟨63, _⟩ => ⟨S_, .i32⟩
  | .hbm, ⟨64, _⟩ => ⟨S_, .f32⟩
  | .hbm, ⟨65, _⟩ => ⟨S_, .i32⟩
  | .hbm, ⟨66, _⟩ => ⟨S33554432, .i32⟩
  | .hbm, ⟨67, _⟩ => ⟨S33554432, .i1⟩
  | .hbm, ⟨68, _⟩ => ⟨S_, .i32⟩
  | .hbm, ⟨69, _⟩ => ⟨S33554432, .i32⟩
  | .hbm, ⟨70, _⟩ => ⟨S33554432, .i32⟩
  | .hbm, ⟨71, _⟩ => ⟨S33554432, .i32⟩
  | .hbm, ⟨72, _⟩ => ⟨S33554432x1, .i32⟩
  | .hbm, ⟨73, _⟩ => ⟨S33554432, .f32⟩
  | .hbm, ⟨74, _⟩ => ⟨S_, .f32⟩
  | .hbm, ⟨75, _⟩ => ⟨S33554432, .f32⟩
  | .hbm, ⟨76, _⟩ => ⟨S33554432, .f32⟩
  | .hbm, ⟨77, _⟩ => ⟨S33554432, .f32⟩
  | .hbm, ⟨78, _⟩ => ⟨S33554432, .f32⟩
  | .hbm, ⟨79, _⟩ => ⟨S_, .f32⟩
  | .hbm, ⟨80, _⟩ => ⟨S_, .f32⟩
  | .hbm, ⟨81, _⟩ => ⟨S33554432, .f32⟩
  | .hbm, ⟨82, _⟩ => ⟨S33554432, .f32⟩
  | .hbm, ⟨83, _⟩ => ⟨S_, .f32⟩
  | .hbm, ⟨84, _⟩ => ⟨S_, .f32⟩
  | .hbm, ⟨85, _⟩ => ⟨S33554432, .f32⟩
  | .hbm, ⟨86, _⟩ => ⟨S33554432, .f32⟩
  | .hbm, ⟨87, _⟩ => ⟨S_, .f32⟩
  | .hbm, ⟨88, _⟩ => ⟨S33554432, .f32⟩
  | .hbm, ⟨89, _⟩ => ⟨S33554432, .f32⟩
  | .hbm, ⟨90, _⟩ => ⟨S33554432, .f32⟩
  | .hbm, ⟨91, _⟩ => ⟨S33554432, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S32x1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_c_8 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v26 : Ref sig .tc := ⟨.hbm, 45, rfl⟩
abbrev main_cst_9 : Ref sig .tc := ⟨.hbm, 46, rfl⟩
abbrev main_v27 : Ref sig .tc := ⟨.hbm, 47, rfl⟩
abbrev main_v28 : Ref sig .tc := ⟨.hbm, 48, rfl⟩
abbrev main_c_10 : Ref sig .tc := ⟨.hbm, 49, rfl⟩
abbrev main_v29 : Ref sig .tc := ⟨.hbm, 50, rfl⟩
abbrev main_v30 : Ref sig .tc := ⟨.hbm, 51, rfl⟩
abbrev main_c_11 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_12 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_13 : Ref sig .tc := ⟨.hbm, 62, rfl⟩
abbrev main_v39 : Ref sig .tc := ⟨.hbm, 63, rfl⟩
abbrev main_v40 : Ref sig .tc := ⟨.hbm, 64, rfl⟩
abbrev main_c_14 : Ref sig .tc := ⟨.hbm, 65, rfl⟩
abbrev main_v41 : Ref sig .tc := ⟨.hbm, 66, rfl⟩
abbrev main_v42 : Ref sig .tc := ⟨.hbm, 67, rfl⟩
abbrev main_c_15 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_16 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_17 : Ref sig .tc := ⟨.hbm, 79, rfl⟩
abbrev main_call1_v0 : Ref sig .tc := ⟨.hbm, 80, rfl⟩
abbrev main_call1_v1 : Ref sig .tc := ⟨.hbm, 81, rfl⟩
abbrev main_v52 : Ref sig .tc := ⟨.hbm, 82, rfl⟩
abbrev main_cst_18 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_19 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_20 : Ref sig .tc := ⟨.hbm, 92, rfl⟩
abbrev main_v60 : Ref sig .tc := ⟨.hbm, 93, rfl⟩
abbrev main_v61 : Ref sig .tc := ⟨.hbm, 94, rfl⟩
abbrev main_cst_21 : Ref sig .tc := ⟨.hbm, 95, rfl⟩
abbrev main_v62 : Ref sig .tc := ⟨.hbm, 96, rfl⟩
abbrev main_cst_22 : Ref sig .tc := ⟨.hbm, 97, rfl⟩
abbrev main_v63 : Ref sig .tc := ⟨.hbm, 98, rfl⟩

abbrev nD : Nat := 1
abbrev τ : Topo := Topo.v7x

variable {F : FTy → Type} [FloatOps F]

class Facts₀ : Prop where
  shapeCasts_S32x1048576_S33554432 : S32x1048576.ShapeCasts S33554432
  reducesTo_S33554432_S_d0 : S33554432.ReducesTo [0] S_
  h_S_ : 0 < S_.numel
  bcast_S_S33554432 : S_.BroadcastsInDim S33554432 (![] : Fin 0 → Fin S33554432.rank)
  bcast_S_S10 : S_.BroadcastsInDim S10 (![] : Fin 0 → Fin S10.rank)
  bcast_S33554432_S33554432x1_0 : S33554432.BroadcastsInDim S33554432x1 (![0] : Fin 1 → Fin S33554432x1.rank)
  natLt_1_32 : 1 < 32
  reducesTo_S10_S_d0 : S10.ReducesTo [0] S_
  scatter_S10_S33554432x1_S33554432_n_0_0_1_wf : ScatterDims.WF S10 S33554432x1 S33554432 [] [0] [0] 1
  gather_S10_S33554432x1_S33554432_n_0_n_n_0_1_1_wf : GatherDims.WF S10 S33554432x1 S33554432 [] [0] [] [0] [] 1 ![1]

variable [Facts₀]

def scatter_S10_S33554432x1_S33554432_n_0_0_1 : ScatterDims S10 S33554432x1 S33554432 where
  updateWindowDims := []
  insertedWindowDims := [0]
  scatterDimsToOperandDims := [0]
  indexVectorDim := 1
  wf := scatter_S10_S33554432x1_S33554432_n_0_0_1_wf
def gather_S10_S33554432x1_S33554432_n_0_n_n_0_1_1 : GatherDims S10 S33554432x1 S33554432 where
  offsetDims := []
  collapsedSliceDims := [0]
  operandBatchingDims := []
  startIndicesBatchingDims := []
  startIndexMap := [0]
  indexVectorDim := 1
  sliceSizes := ![1]
  wf := gather_S10_S33554432x1_S33554432_n_0_n_n_0_1_1_wf

class Facts : Prop extends Facts₀ where

variable [Facts]
-- ==== Proof.KernelRun.lean ====
/-
  The idealized kernel program's run with its result NAMED: every weakly fair execution of @main terminates, nothing
  faulting, with the three argument arrays as launched and the result buffer holding what the fold of @main's
  segments — region 0, the host operations after it, region 1, more host operations, region 2, the last host
  operations — leaves there. The frame's own argument, with one more buffer read off the final thread state.
-/
import proofs.«119492_j55929064129141_2_alg».proof.Proof.Gen.KernelIdeal.Frame

set_option maxRecDepth 16384

noncomputable section

namespace Cert.KernelIdeal.RunV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer ends at the last boundary's contents `W6`, the arguments as launched. -/
theorem run : θ_run defs (onTc (τ := τ) (main (F := F))) ⟨m, fun _ => 0, ρ⟩ (fun r => ∀ c : Dev nD,
      r.2.mem ((c.tc : Thread nD τ).loc main_v44) = W6 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v44 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c)⟩)

end Cert.KernelIdeal.RunV

end
-- ==== Proof.Spec.lean ====
/-
  The loss both programs compute, written once as a function of the three argument arrays over the extended reals.

  For arrays p, t, lw of shape [32, 1048576]:
    I = Σ p·t,  S = Σ p + Σ t,  ratio = 2·I / S,  tot = max (Σ [lw > 0]) 1,
    g = |ratio·p − t|,  in_range = [lw > 0] ∧ [g < 1.00000095],  bin = clamp (⌊10·g⌋, 0, 9),
    count(b) = Σ over the elements with bin = b of in_range,
    n = max (Σ_b [count(b) > 0]) 1,
    weight = (in_range ? tot / max (count(bin)) 1 : 0) / n,
    loss = (1 − (Σ 2·p·t·weight) / S) · 1.
  Every sum ranges over ALL index pairs of the array; a sum over the extended reals does not depend on how its
  terms are grouped or ordered, which is all that separates the two programs.
-/
import Idealize.ShloMosaic.PureOps.Ideal
import Idealize.ShloMosaic.Lib.ValueIdx

noncomputable section

namespace Cert.Spec

open Idealize.ShloMosaic

/-- The shape of the three argument arrays. -/
abbrev SA : Shape := ⟨2, ![32, 1048576]⟩

/-- The float literals of the two programs, as the extended reals their words denote. -/
abbrev w0 : EReal := Ideal.ofBits .f32 0x00000000#32
abbrev w1 : EReal := Ideal.ofBits .f32 0x3F800000#32
abbrev w2 : EReal := Ideal.ofBits .f32 0x40000000#32
abbrev w10 : EReal := Ideal.ofBits .f32 0x41200000#32
abbrev wTop : EReal := Ideal.ofBits .f32 0x3F800008#32

/-- The sum of a function over every index of the array. -/
def total (f : SA.Idx → EReal) : EReal := ∑ i, f i

/-- A one-bit word as the number 0 or 1. -/
def b2f (b : BitVec 1) : EReal := ((b.toNat : ℝ) : EReal)

/-- The validity bit of one element: its label weight is positive. -/
def valid (l : EReal) : BitVec 1 := Ideal.cmp .ogt l w0

/-- The gradient-norm proxy of one element, |ratio·p − t|. -/
def gOf (r pe te : EReal) : EReal := max (r * pe - te) (-(r * pe - te))

/-- The element is valid and its proxy lies under the top edge. -/
def inr (r pe te l : EReal) : BitVec 1 := IntOp.andi (valid l) (Ideal.cmp .olt (gOf r pe te) wTop)

/-- The element's bin, as a 32-bit word: ⌊10·g⌋ converted to an integer and clamped to [0, 9]. -/
def binOf (r pe te : EReal) : BitVec 32 :=
  IntOp.minsi 9#32 (IntOp.maxsi 0#32 (Ideal.fptosi 32 (Ideal.liftRound Int.floor (gOf r pe te * w10))))

/-- The entry of a ten-entry table that a bin word names (0 for a word outside [0, 9]). -/
def pick (cnt : Fin 10 → EReal) (v : BitVec 32) : EReal := if h : v.toNat < 10 then cnt ⟨v.toNat, h⟩ else 0

/-- How many of ten counts are positive. -/
def nonempty (cnt : Fin 10 → EReal) : EReal := ∑ b : Fin 10, b2f (Ideal.cmp .ogt (cnt b) w0)

/-- One element's weight, from the ratio, the total, the number of non-empty bins and the table of counts. -/
def weight (r tt nn : EReal) (cnt : Fin 10 → EReal) (pe te l : EReal) : EReal :=
  Ideal.div (Scalar.select (inr r pe te l) (Ideal.div tt (max (pick cnt (binOf r pe te)) w1)) w0) nn

section

variable (p t lw : SA.Idx → EReal)

def sumP : EReal := total p
def sumT : EReal := total t
def sumPT : EReal := total fun i => p i * t i
def sumV : EReal := total fun i => b2f (valid (lw i))

/-- S, the Dice denominator. -/
def denomS : EReal := sumP p + sumT t
/-- 2·I / S. -/
def ratio : EReal := Ideal.div (w2 * sumPT p t) (denomS p t)
/-- max (number of valid elements) 1. -/
def tot : EReal := max (sumV lw) w1

/-- The histogram count of the bin word `v` under the ratio `r`. -/
def count (r : EReal) (v : BitVec 32) : EReal :=
  total fun i => if binOf r (p i) (t i) = v then b2f (inr r (p i) (t i) (lw i)) else 0

/-- The weighted sum Σ 2·p·t·weight. -/
def wsum (r tt nn : EReal) (cnt : Fin 10 → EReal) : EReal :=
  total fun i => w2 * p i * t i * weight r tt nn cnt (p i) (t i) (lw i)

/-- The table of the ten counts under the program's own ratio. -/
def counts : Fin 10 → EReal := fun b => count p t lw (ratio p t) (BitVec.ofNat 32 b.val)

/-- max (number of non-empty bins) 1. -/
def nn : EReal := max (nonempty (counts p t lw)) w1

/-- The loss. -/
def loss : EReal :=
  (w1 - Ideal.div (wsum p t lw (ratio p t) (tot lw) (nn p t lw) (counts p t lw)) (denomS p t)) * w1

end

end Cert.Spec

end
-- ==== Proof.Glue.lean ====
/-
  The host operations between and after the three regions of the idealized kernel program, read at an index:
  from ANY buffer contents W at the start of a stretch, which buffers the stretch leaves as they were and what it
  leaves in the ones the next region (or the result) reads — the four statistics' sum and quotient, the parameter
  rows written by single-element scatters into zero rows, the number of non-empty bins, and the final loss.
-/
import proofs.«119492_j55929064129141_2_alg».proof.Proof.Gen.KernelIdeal.Frame
import proofs.«119492_j55929064129141_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws

noncomputable section

open Idealize.ShloMosaic Idealize.ShloMosaic.TcCoe Idealize.SL.Sem Idealize.ShloMosaic.ValueIdx

namespace Cert.KernelIdeal.Glue

open Cert.KernelIdeal Cert.KernelIdeal.Gen Cert.Spec

variable (W : Valuation τ sig (Elt Ideal))

/-- Lane `l` of the [1,128] arrays the three regions leave, and the rank-zero host values, as extended reals. -/
abbrev a0 (l : Fin 128) : EReal := W (Proc.devRef .tc main_v0) (ix2 (0 : Fin 1) l)
abbrev a1 (l : Fin 128) : EReal := W (Proc.devRef .tc main_v18) (ix2 (0 : Fin 1) l)
abbrev a2 (l : Fin 128) : EReal := W (Proc.devRef .tc main_v39) (ix2 (0 : Fin 1) l)
abbrev s9 : EReal := W (Proc.devRef .tc main_v9) ix0
abbrev s11 : EReal := W (Proc.devRef .tc main_v11) ix0
abbrev s12 : EReal := W (Proc.devRef .tc main_v12) ix0

/-! ## Reading the operations at an index -/

section Reads
variable {α : Type}

/-- A [1,1] array has the one index (0,0). -/
theorem idx11 (k : S1x1.Idx) : k = ix2 (0 : Fin 1) (0 : Fin 1) := by
  funext a
  match a with
  | ⟨0, _⟩ => exact Subsingleton.elim (α := Fin 1) _ _
  | ⟨1, _⟩ => exact Subsingleton.elim (α := Fin 1) _ _

/-- The [1,1] slice of a [1,128] row at column k, reshaped to a scalar, is the row's lane k. -/
theorem lane_apply (x : S1x128.Idx → α) (k : Nat) (hk : k < 128) (hs : S1x128.Slices ![0, k] S1x1)
    (hc : S1x1.ShapeCasts S_) (i : S_.Idx) :
    shapeCast S_ (extractStridedSlice S1x1 ![0, k] x hs) hc i = x (ix2 (0 : Fin 1) (⟨k, hk⟩ : Fin 128)) := by
  unfold shapeCast
  rw [idx11 (Shape.reshapeEquiv hc i)]
  exact extractStridedSlice_apply _ x hs _ _ fun a => by
    match a with
    | ⟨0, _⟩ => rfl
    | ⟨1, _⟩ => rfl

end Reads

/-- Lane k of a [1,128] row of extended reals, as the program reads it: a [1,1] slice reshaped to a scalar. -/
abbrev laneOf (X : S1x128.Idx → EReal) (k : Nat) (hs : S1x128.Slices ![0, k] S1x1) (i : S_.Idx) : EReal :=
  shapeCast S_ (extractStridedSlice S1x1 ![0, k] X hs) shapeCasts_S1x1_S_ i

section Row10
variable {α : Type}

/-- The first ten lanes of a [1,128] row, sliced [1,10] and reshaped to [10], read at b: the row's lane b. -/
theorem row10_apply (X : S1x128.Idx → α) (hs : S1x128.Slices ![0, 0] S1x10) (hc : S1x10.ShapeCasts S10) (b : Fin 10) :
    shapeCast S10 (extractStridedSlice S1x10 ![0, 0] X hs) hc (ix1 b)
      = X (ix2 (0 : Fin 1) (⟨b.val, by omega⟩ : Fin 128)) := by
  refine (shapeCast_apply _ hc (ix1 b) (ix2 (0 : Fin 1) b) ?_).trans ?_
  · rw [Shape.rowMajor_val_two, Shape.rowMajor_val_one]
    show 0 * 10 + b.val = b.val
    omega
  · exact extractStridedSlice_apply _ X hs _ _ fun a => by
      match a with
      | ⟨0, _⟩ => rfl
      | ⟨1, _⟩ => exact (Nat.zero_add _).symm

end Row10

section Sum1

/-- A rank-one index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Sum1

/-! ## A single-element scatter into a [1,128] row -/

section Scatter
variable {α : Type}

/-- The list of positions below N = 1 is the one position 0. -/
theorem finRange_of_eq_one {N : Nat} (h : N = 1) : List.finRange N = [⟨0, by omega⟩] := by
  subst h; rfl

theorem scatter_start0 (idx : S2.Idx → BitVec 32) :
    scatter_S1x128_S2_S__n_01_01_0.start (ix0 : S_.Idx) idx (0 : Fin 2) = (idx (ix1 (0 : Fin 2))).toInt := by
  unfold ScatterDims.start
  rw [dif_pos (by decide)]
  congr 2
  funext b
  match b with
  | ⟨0, _⟩ => rfl

theorem scatter_start1 (idx : S2.Idx → BitVec 32) :
    scatter_S1x128_S2_S__n_01_01_0.start (ix0 : S_.Idx) idx (1 : Fin 2) = (idx (ix1 (1 : Fin 2))).toInt := by
  unfold ScatterDims.start
  rw [dif_pos (by decide)]
  congr 2
  funext b
  match b with
  | ⟨0, _⟩ => rfl

theorem scatter_window (a : Fin 2) : scatter_S1x128_S2_S__n_01_01_0.window (ix0 : S_.Idx) a = 0 := by
  unfold ScatterDims.window
  rw [dif_neg (by revert a; decide)]

end Scatter

section Scatter2
variable {α : Type}

/-- One scalar update written at the index words (0, k) of a [1,128] row: lane k becomes the update, the rest stays. -/
theorem scatter_lane (x : S1x128.Idx → α) (idx : S2.Idx → BitVec 32) (u : S_.Idx → α) (k : Nat) (hk : k < 128)
    (h0 : idx (ix1 (0 : Fin 2)) = 0#32) (h1 : idx (ix1 (1 : Fin 2)) = BitVec.ofNat 32 k) (j : S1x128.Idx) :
    Host.scatter scatter_S1x128_S2_S__n_01_01_0 (fun _ b => b) x idx u j
      = if j = ix2 (0 : Fin 1) (⟨k, hk⟩ : Fin 128) then u ix0 else x j := by
  have hk' : ((BitVec.ofNat 32 k).toInt) = (k : Int) := by
    have hn : (BitVec.ofNat 32 k).toNat = k := by
      rw [BitVec.toNat_ofNat]; exact Nat.mod_eq_of_lt (by omega)
    rw [BitVec.toInt_eq_toNat_cond, hn, if_pos (by omega)]
  have hr : scatter_S1x128_S2_S__n_01_01_0.resultIdx? (ix0 : S_.Idx) idx = some (ix2 (0 : Fin 1) (⟨k, hk⟩ : Fin 128)) := by
    unfold ScatterDims.resultIdx?
    rw [dif_pos ?_]
    · congr 1
      funext a
      match a with
      | ⟨0, _⟩ =>
        apply Fin.ext
        show (scatter_S1x128_S2_S__n_01_01_0.start ix0 idx (0 : Fin 2) + (scatter_S1x128_S2_S__n_01_01_0.window ix0 (0 : Fin 2) : Int)).toNat = 0
        rw [scatter_start0, scatter_window, h0]; rfl
      | ⟨1, _⟩ =>
        apply Fin.ext
        show (scatter_S1x128_S2_S__n_01_01_0.start ix0 idx (1 : Fin 2) + (scatter_S1x128_S2_S__n_01_01_0.window ix0 (1 : Fin 2) : Int)).toNat = k
        rw [scatter_start1, scatter_window, h1, hk']; simp
    · intro a
      match a with
      | ⟨0, _⟩ =>
        show 0 ≤ (scatter_S1x128_S2_S__n_01_01_0.start ix0 idx (0 : Fin 2) + (scatter_S1x128_S2_S__n_01_01_0.window ix0 (0 : Fin 2) : Int)) ∧ (scatter_S1x128_S2_S__n_01_01_0.start ix0 idx (0 : Fin 2) + (scatter_S1x128_S2_S__n_01_01_0.window ix0 (0 : Fin 2) : Int)) < ((1 : Nat) : Int)
        rw [scatter_start0, scatter_window, h0]; decide
      | ⟨1, _⟩ =>
        show 0 ≤ (scatter_S1x128_S2_S__n_01_01_0.start ix0 idx (1 : Fin 2) + (scatter_S1x128_S2_S__n_01_01_0.window ix0 (1 : Fin 2) : Int)) ∧ (scatter_S1x128_S2_S__n_01_01_0.start ix0 idx (1 : Fin 2) + (scatter_S1x128_S2_S__n_01_01_0.window ix0 (1 : Fin 2) : Int)) < ((128 : Nat) : Int)
        rw [scatter_start1, scatter_window, h1, hk']; omega
  unfold Host.scatter
  rw [finRange_of_eq_one (Shape.numel_eq_one fun a => a.elim0), List.foldl_cons, List.foldl_nil]
  generalize S_.rowMajor.symm _ = q
  obtain rfl := eq_ix0 q
  rw [hr]

end Scatter2

section Scatter3
variable {α : Type}

/-- The same with the lane given as an index of the row. -/
theorem scatter_at (x : S1x128.Idx → α) (idx : S2.Idx → BitVec 32) (u : S_.Idx → α) (k : Fin 128)
    (h0 : idx (ix1 (0 : Fin 2)) = 0#32) (h1 : idx (ix1 (1 : Fin 2)) = BitVec.ofNat 32 k.val) (j : S1x128.Idx) :
    Host.scatter scatter_S1x128_S2_S__n_01_01_0 (fun _ b => b) x idx u j
      = if j = ix2 (0 : Fin 1) k then u ix0 else x j :=
  scatter_lane x idx u k.val k.isLt h0 h1 j

end Scatter3

section IdxVec

/-- The two-word index vector built from two one-word rows, read at its two positions. -/
theorem idxvec_0 (i0 i1 : S1.Idx → BitVec 32) (h : Shape.Concatenates [S1, S1] S2 0) :
    concatenate S2 0 [⟨S1, i0⟩, ⟨S1, i1⟩] h (ix1 (0 : Fin 2)) = i0 (ix1 (0 : Fin 1)) :=
  concatenate_pair_apply_left 0 i0 i1 h _ rfl _ fun b => by
    match b with
    | ⟨0, _⟩ => rfl

theorem idxvec_1 (i0 i1 : S1.Idx → BitVec 32) (h : Shape.Concatenates [S1, S1] S2 0) :
    concatenate S2 0 [⟨S1, i0⟩, ⟨S1, i1⟩] h (ix1 (1 : Fin 2)) = i1 (ix1 (0 : Fin 1)) :=
  concatenate_pair_apply_right 0 i0 i1 h _ rfl rfl _
    (fun b hb => by
      match b with
      | ⟨0, _⟩ => exact absurd rfl hb)
    rfl

end IdxVec

/-- A buffer that no operation of the stretch writes holds afterwards what it held before. -/
local macro "unwritten " l:ident : tactic =>
  `(tactic| exact StableHlo.after_of_forall_not_mem _ _ (List.forall_iff_forall_mem.mp (by
      simp only [$l:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-! ## The host operations between region 0 and region 1 -/
theorem h1_v9 : StableHlo.after hostOps1 W (Proc.devRef .tc main_v9) = fun _ => a0 W 0 + a0 W 1 := by
  after_results_simp
  funext i
  show laneOf (W (Proc.tc.devRef main_v0)) 0 slices_S1x128_S1x1_0_0 i
      + laneOf (W (Proc.tc.devRef main_v0)) 1 slices_S1x128_S1x1_0_1 i = _
  unfold laneOf
  rw [lane_apply _ 0 (by omega), lane_apply _ 1 (by omega)]
  rfl

theorem h1_v11 : StableHlo.after hostOps1 W (Proc.devRef .tc main_v11)
    = fun _ => Ideal.div (w2 * a0 W 2) (a0 W 0 + a0 W 1) := by
  after_results_simp
  funext i
  show Ideal.div (w2 * laneOf (W (Proc.tc.devRef main_v0)) 2 slices_S1x128_S1x1_0_2 i)
      (laneOf (W (Proc.tc.devRef main_v0)) 0 slices_S1x128_S1x1_0_0 i
        + laneOf (W (Proc.tc.devRef main_v0)) 1 slices_S1x128_S1x1_0_1 i) = _
  unfold laneOf
  rw [lane_apply _ 0 (by omega), lane_apply _ 1 (by omega), lane_apply _ 2 (by omega)]
  rfl

theorem h1_v12 : StableHlo.after hostOps1 W (Proc.devRef .tc main_v12) = fun _ => max (a0 W 3) w1 := by
  after_results_simp
  funext i
  show max (laneOf (W (Proc.tc.devRef main_v0)) 3 slices_S1x128_S1x1_0_3 i) w1 = _
  unfold laneOf
  rw [lane_apply _ 3 (by omega)]
  rfl

theorem h1_v17 : (StableHlo.after hostOps1 W (Proc.devRef .tc main_v17) (ix2 (0 : Fin 1) (0 : Fin 128)) : EReal)
    = Ideal.div (w2 * a0 W 2) (a0 W 0 + a0 W 1) := by
  after_results_simp
  refine (scatter_at _ _ _ (0 : Fin 128) ?_ ?_ _).trans ?_
  · rw [idxvec_0]
    after_results_simp
    rfl
  · rw [idxvec_1]
    after_results_simp
    rfl
  · rw [if_pos rfl]
    show Ideal.div (w2 * laneOf (W (Proc.tc.devRef main_v0)) 2 slices_S1x128_S1x1_0_2 ix0)
        (laneOf (W (Proc.tc.devRef main_v0)) 0 slices_S1x128_S1x1_0_0 ix0
          + laneOf (W (Proc.tc.devRef main_v0)) 1 slices_S1x128_S1x1_0_1 ix0) = _
    unfold laneOf
    rw [lane_apply _ 0 (by omega), lane_apply _ 1 (by omega), lane_apply _ 2 (by omega)]
    rfl

theorem h1_keep_arg0 : StableHlo.after hostOps1 W (Proc.devRef .tc main_arg0) = W (Proc.devRef .tc main_arg0) := by unwritten hostOps1
theorem h1_keep_arg1 : StableHlo.after hostOps1 W (Proc.devRef .tc main_arg1) = W (Proc.devRef .tc main_arg1) := by unwritten hostOps1
theorem h1_keep_arg2 : StableHlo.after hostOps1 W (Proc.devRef .tc main_arg2) = W (Proc.devRef .tc main_arg2) := by unwritten hostOps1

/-! ## The host operations between region 1 and region 2 -/

theorem h2_v38_0 : (StableHlo.after hostOps2 W (Proc.devRef .tc main_v38) (ix2 (0 : Fin 1) (0 : Fin 128)) : EReal) = s11 W := by
  after_results_simp
  refine (scatter_at _ _ _ (2 : Fin 128) ?_ ?_ _).trans ?_
  · rw [idxvec_0]; after_results_simp; rfl
  · rw [idxvec_1]; after_results_simp; rfl
  rw [if_neg (by decide)]
  refine (scatter_at _ _ _ (1 : Fin 128) ?_ ?_ _).trans ?_
  · rw [idxvec_0]; after_results_simp; rfl
  · rw [idxvec_1]; after_results_simp; rfl
  rw [if_neg (by decide)]
  refine (scatter_at _ _ _ (0 : Fin 128) ?_ ?_ _).trans ?_
  · rw [idxvec_0]; after_results_simp; rfl
  · rw [idxvec_1]; after_results_simp; rfl
  rw [if_pos rfl]

theorem h2_v38_1 : (StableHlo.after hostOps2 W (Proc.devRef .tc main_v38) (ix2 (0 : Fin 1) (1 : Fin 128)) : EReal) = s12 W := by
  after_results_simp
  refine (scatter_at _ _ _ (2 : Fin 128) ?_ ?_ _).trans ?_
  · rw [idxvec_0]; after_results_simp; rfl
  · rw [idxvec_1]; after_results_simp; rfl
  rw [if_neg (by decide)]
  refine (scatter_at _ _ _ (1 : Fin 128) ?_ ?_ _).trans ?_
  · rw [idxvec_0]; after_results_simp; rfl
  · rw [idxvec_1]; after_results_simp; rfl
  rw [if_pos rfl]

theorem h2_v38_2 : (StableHlo.after hostOps2 W (Proc.devRef .tc main_v38) (ix2 (0 : Fin 1) (2 : Fin 128)) : EReal)
    = max (nonempty fun b : Fin 10 => a1 W (⟨b.val, by omega⟩ : Fin 128)) w1 := by
  after_results_simp
  refine (scatter_at _ _ _ (2 : Fin 128) ?_ ?_ _).trans ?_
  · rw [idxvec_0]; after_results_simp; rfl
  · rw [idxvec_1]; after_results_simp; rfl
  rw [if_pos rfl]
  show max (Ideal.hostReduceAdd reducesTo_S10_S_d0
      (fun i : S10.Idx => b2f (Ideal.cmp .ogt
        (shapeCast S10 (extractStridedSlice S1x10 ![0, 0] (W (Proc.tc.devRef main_v18) : S1x128.Idx → EReal) slices_S1x128_S1x10_0_0)
          shapeCasts_S1x10_S10 i) w0))
      w0 ix0) w1 = _
  rw [Ideal.hostReduceAdd_total reducesTo_S10_S_d0 (fun b => b.elim0), sum_idx1]
  have e0 : (w0 : EReal) = 0 := Ideal.ofBits_zero_f32
  refine congrArg (fun z => max z w1) ?_
  show w0 + _ = ∑ b : Fin 10, b2f (Ideal.cmp .ogt (a1 W (⟨b.val, by omega⟩ : Fin 128)) w0)
  refine (congrArg (fun z => z + _) e0).trans ((zero_add _).trans ?_)
  refine Finset.sum_congr rfl fun b _ => ?_
  show b2f (Ideal.cmp .ogt (shapeCast S10 (extractStridedSlice S1x10 ![0, 0] (W (Proc.tc.devRef main_v18) : S1x128.Idx → EReal) slices_S1x128_S1x10_0_0)
          shapeCasts_S1x10_S10 (ix1 b)) w0) = _
  rw [row10_apply]

theorem h2_keep_arg0 : StableHlo.after hostOps2 W (Proc.devRef .tc main_arg0) = W (Proc.devRef .tc main_arg0) := by unwritten hostOps2
theorem h2_keep_arg1 : StableHlo.after hostOps2 W (Proc.devRef .tc main_arg1) = W (Proc.devRef .tc main_arg1) := by unwritten hostOps2
theorem h2_keep_arg2 : StableHlo.after hostOps2 W (Proc.devRef .tc main_arg2) = W (Proc.devRef .tc main_arg2) := by unwritten hostOps2
theorem h2_keep_v18 : StableHlo.after hostOps2 W (Proc.devRef .tc main_v18) = W (Proc.devRef .tc main_v18) := by unwritten hostOps2
theorem h2_keep_v9 : StableHlo.after hostOps2 W (Proc.devRef .tc main_v9) = W (Proc.devRef .tc main_v9) := by unwritten hostOps2
theorem h2_keep_v11 : StableHlo.after hostOps2 W (Proc.devRef .tc main_v11) = W (Proc.devRef .tc main_v11) := by unwritten hostOps2
theorem h2_keep_v12 : StableHlo.after hostOps2 W (Proc.devRef .tc main_v12) = W (Proc.devRef .tc main_v12) := by unwritten hostOps2

/-! ## The host operations after region 2 -/

theorem h3_v44 : StableHlo.after hostOps3 W (Proc.devRef .tc main_v44)
    = fun _ => (w1 - Ideal.div (a2 W 0) (s9 W)) * w1 := by
  after_results_simp
  funext i
  obtain rfl := eq_ix0 i
  show (w1 - Ideal.div (laneOf (W (Proc.tc.devRef main_v39)) 0 slices_S1x128_S1x1_0_0 ix0)
      (W (Proc.tc.devRef main_v9) ix0)) * w1 = _
  unfold laneOf
  rw [lane_apply _ 0 (by omega)]
  rfl

end Cert.KernelIdeal.Glue

end
-- ==== Proof.SumLemmas.lean ====
/-
  Sums over the whole [32, 1048576] array regrouped, and the small facts about one-bit words and bin words
  that both programs' value proofs share.
-/
import proofs.«119492_j55929064129141_2_alg».proof.Proof.Spec

noncomputable section

namespace Cert.Spec

open Idealize.ShloMosaic Idealize.ShloMosaic.ValueIdx

/-- Position l of block t lies inside an axis of m blocks of n positions. -/
theorem block_lt {m n N : ℕ} (h : m * n = N) (t : Fin m) (l : Fin n) : t.val * n + l.val < N := by
  subst h
  calc t.val * n + l.val < t.val * n + n := Nat.add_lt_add_left l.isLt _
    _ = (t.val + 1) * n := (Nat.succ_mul _ _).symm
    _ ≤ m * n := Nat.mul_le_mul_right _ t.isLt

/-- A sum over an axis of m·n positions is the sum over its m blocks of n consecutive positions. -/
theorem sum_blocks {M : Type*} [AddCommMonoid M] {m n N : ℕ} (h : m * n = N) (g : Fin N → M) :
    ∑ t : Fin m, ∑ l : Fin n, g ⟨t.val * n + l.val, block_lt h t l⟩ = ∑ k : Fin N, g k := by
  subst h
  rw [← Equiv.sum_comp finProdFinEquiv g, Fintype.sum_prod_type]
  refine Finset.sum_congr rfl fun t _ => Finset.sum_congr rfl fun l _ => congrArg g (Fin.ext ?_)
  simp [finProdFinEquiv, Nat.mul_comm, Nat.add_comm]

/-- The row of a row-major position lies inside the array. -/
theorem row_lt {m n N : ℕ} (h : m * n = N) (k : Fin N) : k.val / n < m := by
  subst h
  exact Nat.div_lt_of_lt_mul (lt_of_lt_of_eq k.isLt (Nat.mul_comm m n))

/-- A sum over the m·n row-major positions of an m × n array is the double sum over rows and columns. -/
theorem sum_rowmajor {M : Type*} [AddCommMonoid M] {m n N : ℕ} (h : m * n = N) (hn : 0 < n) (g : Fin m → Fin n → M) :
    ∑ k : Fin N, g ⟨k.val / n, row_lt h k⟩ ⟨k.val % n, Nat.mod_lt _ hn⟩ = ∑ a : Fin m, ∑ b : Fin n, g a b := by
  subst h
  have e := Equiv.sum_comp (finProdFinEquiv (m := m) (n := n)).symm (fun p : Fin m × Fin n => g p.1 p.2)
  rw [Fintype.sum_prod_type] at e
  exact e

/-- The sum over the whole array is the sum over 64 column blocks of 16384 columns, each summed row by row. -/
theorem total_blocks (f : SA.Idx → EReal) :
    ∑ t : Fin 64, ∑ r : Fin 32, ∑ l : Fin 16384, f (ix2 r (⟨t.val * 16384 + l.val, by omega⟩ : Fin 1048576)) = total f := by
  unfold total
  rw [sum_idx2, Finset.sum_comm]
  refine Finset.sum_congr rfl fun r _ => ?_
  exact sum_blocks (m := 64) (n := 16384) (by norm_num) (fun b : Fin 1048576 => f (ix2 r b))

/-- The sum over the whole array is the sum over its 33554432 row-major positions. -/
theorem total_flat (f : SA.Idx → EReal) :
    ∑ k : Fin 33554432, f (ix2 (⟨k.val / 1048576, by omega⟩ : Fin 32) (⟨k.val % 1048576, Nat.mod_lt _ (by decide)⟩ : Fin 1048576)) = total f := by
  unfold total
  rw [sum_idx2]
  exact sum_rowmajor (m := 32) (n := 1048576) (by norm_num) (by norm_num) (fun a b => f (ix2 a b))

/-- A one-bit word widened to 32 bits and read as a signed integer is the number 0 or 1. -/
theorem b2f_toInt_setWidth (b : BitVec 1) : (((b.setWidth 32).toInt : ℝ) : EReal) = b2f b := by
  rcases BitVec.eq_zero_or_eq_one b with h | h <;> subst h
  · have : (BitVec.setWidth 32 (0#1)).toInt = 0 := by decide
    simp [b2f, this]
  · have : (BitVec.setWidth 32 (1#1)).toInt = 1 := by decide
    simp [b2f, this]

theorem b2f_eq_ite (b : BitVec 1) : b2f b = if b = 1#1 then 1 else 0 := by
  rcases BitVec.eq_zero_or_eq_one b with h | h <;> subst h <;> simp [b2f]

/-- A 32-bit word clamped between 0 and 9 as a signed integer is one of 0 … 9. -/
theorem clamp_lt (x : BitVec 32) : (IntOp.minsi 9#32 (IntOp.maxsi 0#32 x)).toNat < 10 := by
  have e9 : (9#32 : BitVec 32).toInt = 9 := by decide
  have e0 : (0#32 : BitVec 32).toInt = 0 := by decide
  unfold IntOp.minsi IntOp.maxsi
  by_cases h0 : x.slt 0#32 = true
  · rw [if_pos h0]
    decide
  · rw [if_neg h0]
    by_cases h9 : (9#32).slt x = true
    · rw [if_pos h9]
      decide
    · rw [if_neg h9]
      simp only [BitVec.slt, decide_eq_true_eq, not_lt, e0, e9] at h0 h9
      have hx := BitVec.toInt_eq_toNat_cond x
      have := x.isLt
      split_ifs at hx <;> omega

/-- A bin word is one of 0 … 9. -/
theorem binOf_lt (r pe te : EReal) : (binOf r pe te).toNat < 10 := clamp_lt _

theorem binOf_eq_ofNat (r pe te : EReal) : binOf r pe te = BitVec.ofNat 32 (binOf r pe te).toNat := by
  simp

/-- The table entry a bin word names. -/
theorem pick_ofNat (cnt : Fin 10 → EReal) (b : Fin 10) : pick cnt (BitVec.ofNat 32 b.val) = cnt b := by
  have hb : (BitVec.ofNat 32 b.val).toNat = b.val := by
    rw [BitVec.toNat_ofNat]; exact Nat.mod_eq_of_lt (by have := b.isLt; omega)
  unfold pick
  rw [dif_pos (by rw [hb]; exact b.isLt)]
  exact congrArg cnt (Fin.ext hb)

end Cert.Spec

end
-- ==== Proof.KBlock.lean ====
/-
  Two readings, at the exact values, of vector operations every region's body uses: the two-stage sum of a
  [32, 16384] block (along the lanes, then along the rows, each keeping a unit axis) is the double sum of the block;
  and a value placed in one lane of a [1, 128] row by comparing a lane counter with a constant.
-/
import proofs.«119492_j55929064129141_2_alg».proof.KernelIdeal
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.KBlock

open Cert.KernelIdeal

/-- The two-stage sum of a block: first along the 16384 lanes of each row, then along the 32 rows. -/
theorem fullSum (x : FVec Ideal S32x16384 .f32) (h1 : S32x16384.Reduces [1] S32) (hφ : FKind.Formats .f32)
    (ha : (0x00000000#32 : BitVec 32) = FKind.add.neutral .f32 hφ) (c1 : S32.ShapeCasts S32x1)
    (h2 : S32x1.Reduces [0] S1) (c2 : S1.ShapeCasts S1x1) (j : S1x1.Idx) :
    shapeCast S1x1 (multiReduction .add [0] S1 (shapeCast S32x1 (multiReduction .add [1] S32 x 0x00000000#32 h1 hφ ha) c1)
        0x00000000#32 h2 hφ ha) c2 j
      = ∑ r : Fin 32, ∑ l : Fin 16384, x (ix2 r l) := by
  refine (shapeCast_apply _ c2 j (ix1 (0 : Fin 1)) ?_).trans ?_
  · rw [Shape.rowMajor_val_two, Shape.rowMajor_val_one]
    have h0 := idx2_lt0 j
    have h1' := idx2_lt1 j
    show (0 : Nat) = (j 0).val * 1 + (j 1).val
    omega
  refine (Ideal.multiReduction_add_single _ _ h2 hφ ha _).trans ?_
  show ∑ r : Fin 32, _ = _
  refine Finset.sum_congr rfl fun r _ => ?_
  refine (shapeCast_apply _ c1 _ (ix1 r) ?_).trans ?_
  · rw [Shape.rowMajor_val_two, Shape.rowMajor_val_one]
    show r.val = h2.liftVal (ix1 (0 : Fin 1)) r.val 0 * 1 + h2.liftVal (ix1 (0 : Fin 1)) r.val 1
    simp [Shape.Reduces.liftVal]
  refine (Ideal.multiReduction_add_single _ _ h1 hφ ha _).trans ?_
  show ∑ l : Fin 16384, _ = _
  refine Finset.sum_congr rfl fun l _ => congrArg x ?_
  funext a
  apply Fin.ext
  show h1.liftVal (ix1 r) l.val a = (ix2 r l a).val
  match a with
  | ⟨0, _⟩ => simp [Shape.Reduces.liftVal]
  | ⟨1, _⟩ => simp [Shape.Reduces.liftVal]

/-- A test of two words for equality selects between two values. -/
theorem select_cmpi_eq {α : Type} {w : Nat} (x y : BitVec w) (a b : α) :
    Scalar.select (IntOp.cmpi .eq x y) a b = if x = y then a else b := by
  unfold Scalar.select IntOp.cmpi
  by_cases h : x = y
  · subst h; simp
  · have : (x == y) = false := by simpa using h
    simp [this, h]

/-- A [1,1] value placed in lane `k` of a [1,128] row, the other lanes from `rest`: the lane counter compared with
    the constant `k` picks the lane. -/
theorem laneSel (k : Nat) (hk : k < 128) (hi : S1x128.Iotas .tc 32 [1]) (v : FVec Ideal S1x1 .f32)
    (cc : S1x1.ShapeCasts S1x1) (hb : S1x1.Broadcasts S1x128) (rest : FVec Ideal S1x128 .f32) (l : Fin 128) :
    select (cmpi .eq (iota .tc S1x128 32 [1] hi) (broadcast S1x128 (BitVec.ofNat 32 k)))
        (broadcastTo S1x128 (shapeCast S1x1 v cc) hb) rest (ix2 (0 : Fin 1) l)
      = if l.val = k then v (ix2 (0 : Fin 1) (0 : Fin 1)) else rest (ix2 (0 : Fin 1) l) := by
  show Scalar.select (IntOp.cmpi .eq (iota .tc S1x128 32 [1] hi (ix2 (0 : Fin 1) l)) (BitVec.ofNat 32 k))
      (broadcastTo S1x128 (shapeCast S1x1 v cc) hb (ix2 (0 : Fin 1) l)) (rest (ix2 (0 : Fin 1) l)) = _
  rw [select_cmpi_eq, iota_single_apply, shapeCast_self,
    broadcastTo_apply v hb (ix2 (0 : Fin 1) l) (ix2 (0 : Fin 1) (0 : Fin 1)) (fun a => by
      match a with
      | ⟨0, _⟩ => rfl
      | ⟨1, _⟩ => rfl)]
  have hl : l.val < 128 := l.isLt
  have e : (BitVec.ofNat 32 ((ix2 (0 : Fin 1) l) (1 : Fin 2)).val = BitVec.ofNat 32 k) ↔ l.val = k := by
    show (BitVec.ofNat 32 l.val = BitVec.ofNat 32 k) ↔ l.val = k
    constructor
    · intro h
      have := congrArg BitVec.toNat h
      simp only [BitVec.toNat_ofNat] at this
      omega
    · intro h; rw [h]
  by_cases h : l.val = k
  · rw [if_pos (e.mpr h), if_pos h]
  · rw [if_neg (fun h' => h (e.mp h')), if_neg h]

end Cert.KernelIdeal.KBlock

end
-- ==== Proof.Reg0.lean ====
/-
  Region 0: the first pass accumulates, over the 64 column blocks of the three [32, 1048576] arrays, four block
  statistics into four lanes of one [1, 128] row: the sum of the predictions in lane 0, of the targets in lane 1,
  of their products in lane 2, and the number of elements with a positive label weight in lane 3.

  The row is zeroed before the first block is added and written back after the last, so what the result array
  ends holding in lane l is the sum over the 64 blocks of what each block adds to lane l; a block adds the sum of
  all its entries (taken along the columns, then along the rows), and the 64 column blocks partition the array:
  each lane is the sum over the whole array that the common specification names.
-/
import proofs.«119492_j55929064129141_2_alg».proof.Proof.Gen.KernelIdeal.Frame
import proofs.«119492_j55929064129141_2_alg».proof.Proof.Spec
import proofs.«119492_j55929064129141_2_alg».proof.Proof.SumLemmas
import proofs.«119492_j55929064129141_2_alg».proof.Proof.KBlock
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Reg0

open Cert.KernelIdeal Cert.KernelIdeal.Gen

section Generic
variable {F : FTy → Type} [FloatOps F]

/-- The offset pair (0, 0), as the constant-zero function. -/
theorem hz : (![0, 0] : Fin 2 → Nat) = fun _ => 0 := funext fun a => by fin_cases a <;> rfl

/-- What one grid point leaves in the accumulator, from the point's three input blocks and the old contents. -/
def step (x0 x1 x2 : Vec F S32x16384 .f32) (xo : Vec F S1x128 .f32) : FVec F S1x128 .f32 :=
  k0_pay1 (k0_pay3 x0 x1) (k0_pay4 x2) (iota .tc S1x128 32 [1] iota_S1x128_d1_w32) (k0_pay5 x0) k0_pay6 (k0_pay7 x1) xo

/-- At a point other than the first the body's one store covers the accumulator, with `step` of the three input
    blocks and of what the point before left there. -/
theorem out_B (c : Dev nD) (i : grid0.Coords) (a1 : Memref sig .tc .vmem S32x16384 .f32) (h1 : a1.IsWhole)
    (a2 : Memref sig .tc .vmem S32x16384 .f32) (h2 : a2.IsWhole) (a3 : Memref sig .tc .vmem S32x16384 .f32) (h3 : a3.IsWhole)
    (a4 : Memref sig .tc .vmem S1x128 .f32) (h4 : a4.IsWhole) (hc : ¬cond0_0 i)
    (x0 x1 x2 : Vec F S32x16384 .f32) (xo : Vec F S1x128 .f32) :
    out0_B_3 c i a1 h1 a2 h2 a3 h3 a4 h4 hc x0 x1 x2 xo = step x0 x1 x2 xo := by
  unfold out0_B_3
  rw [View.read_writes_eq_canon _ _ _ (cover0_B_3 c i a1 h1 a2 h2 a3 h3 a4 h4 hc x0 x1 x2 xo)]
  unfold kernelRun0_B
  dsimp only
  sl_unfold_words
  rw [View.canon_unit_zero hz]
  unfold step
  simp only [View.readAt_eq_ld, h1.read_unread, h2.read_unread, h3.read_unread, h4.read_unread,
    View.ld_unit_zero (S := S32x16384) hz, View.ld_unit_zero (S := S1x128) hz, shapeCast_self]

/-- At the first point the body stores the zero row, reads it back, and leaves `step` of the three input blocks
    and of that zero row. -/
theorem out_A (c : Dev nD) (i : grid0.Coords) (a1 : Memref sig .tc .vmem S32x16384 .f32) (h1 : a1.IsWhole)
    (a2 : Memref sig .tc .vmem S32x16384 .f32) (h2 : a2.IsWhole) (a3 : Memref sig .tc .vmem S32x16384 .f32) (h3 : a3.IsWhole)
    (a4 : Memref sig .tc .vmem S1x128 .f32) (h4 : a4.IsWhole) (hc : cond0_0 i)
    (x0 x1 x2 : Vec F S32x16384 .f32) :
    out0_A_3 c i a1 h1 a2 h2 a3 h3 a4 h4 hc x0 x1 x2 = step x0 x1 x2 k0_pay2 := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S1x128) hz, View.readCov_unit_zero (S := S1x128) _ hz]
  unfold step
  simp only [View.readAt_eq_ld, h1.read_unread, h2.read_unread, h3.read_unread,
    View.ld_unit_zero (S := S32x16384) hz, shapeCast_self]
end Generic

section Fold
variable {F : FTy → Type} [FloatOps F]
variable (V : (c : Dev nD) → (b : Ref sig .tc) → Buf (Elt F) ((c : Thread nD τ).loc b)) (c : Dev nD)

theorem h63 : 63 < cfg0.N := by rw [show cfg0.N = 64 from N_0]; decide

/-- The last grid point, the only one after which the accumulator is written back. -/
def tL : Fin cfg0.N := ⟨63, h63⟩

/-- The accumulator's contents after the last point, as contents of the result array. -/
abbrev result : Buf (Elt F) ((c : Thread nD τ).loc main_v0) := outsAt0 V c 63 h63

/-- The one write-back writes the accumulator: block (0, 0) of the [1,128] array read through zero offsets is the array. -/
theorem flushed_eq (t : Fin cfg0.N) (hf : (cfg0.win 3).flush t = true) :
    (dat0 V c).flushed 3 t = ((cfg0.win 3).blk t).view.read (Elt F) (result V c) := by
  have hN : cfg0.N = 64 := N_0
  have h3 : t.val = 63 := by have := (flush0_3 t).mp hf; have := t.isLt; omega
  obtain rfl : t = tL := Fin.ext h3
  show (cfg0.win 3).cut (grid0.coords tL) ((dat0 V c).after 3 tL) = _
  rw [after0_3]
  have hz' : (fun a => win0_3.index tL a * main_v0.ty.shape.size a) = fun _ => 0 := funext fun a => by fin_cases a <;> decide +kernel
  exact (Memref.read_access_unit_zero (Elt F) main_v0 hz' (fun a => by rw [congrFun hz' a]; simp) (result V c)).symm

/-- So the result array ends holding the accumulator's contents after the last point. -/
theorem final_o : (dat0 V c).arrAt 3 cfg0.N = result V c :=
  (dat0 V c).arrAt_eq_of_cover 3 (result V c) (flushed_eq V c) fun i =>
    ⟨tL, (flush0_3 tL).mpr rfl, by
      show i ∈ ((View.whole main_v0).slice (win0_3.rect tL)).set
      rw [View.set_slice_whole, Rect.mem_set_unit]
      intro a
      have h0 : (i 0 : Nat) < 1 := (i 0).isLt
      have h1 : (i 1 : Nat) < 128 := (i 1).isLt
      match a with
      | ⟨0, _⟩ => show win0_3.index tL 0 * win0_3.size 0 ≤ (i 0 : Nat) ∧ (i 0 : Nat) < win0_3.index tL 0 * win0_3.size 0 + win0_3.xsize (grid0.coords tL) 0
                  rw [show win0_3.index tL 0 * win0_3.size 0 = 0 from by decide +kernel, show win0_3.xsize (grid0.coords tL) 0 = 1 from by decide +kernel]; omega
      | ⟨1, _⟩ => show win0_3.index tL 1 * win0_3.size 1 ≤ (i 1 : Nat) ∧ (i 1 : Nat) < win0_3.index tL 1 * win0_3.size 1 + win0_3.xsize (grid0.coords tL) 1
                  rw [show win0_3.index tL 1 * win0_3.size 1 = 0 from by decide +kernel, show win0_3.xsize (grid0.coords tL) 1 = 128 from by decide +kernel]; omega⟩
end Fold

section Lanes
variable (V : (c : Dev nD) → (b : Ref sig .tc) → Buf (Elt Ideal) ((c : Thread nD τ).loc b)) (c : Dev nD)

/-- What the blocks of point `k` contribute, for a per-point contribution `g` of the three blocks. -/
def ptval (g : Vec Ideal S32x16384 .f32 → Vec Ideal S32x16384 .f32 → Vec Ideal S32x16384 .f32 → EReal) (k : ℕ) (hk : k < cfg0.N) : EReal :=
  g (iblk0 V c 0 ⟨k, hk⟩) (iblk0 V c 1 ⟨k, hk⟩) (iblk0 V c 2 ⟨k, hk⟩)

/-- Entry `j` of the accumulator after point `n` is the sum over the points so far of what each adds there,
    whenever one point adds `g` of its blocks to that entry: by induction on the point. -/
theorem outsAt_lane (j : S1x128.Idx) (g : Vec Ideal S32x16384 .f32 → Vec Ideal S32x16384 .f32 → Vec Ideal S32x16384 .f32 → EReal)
    (hg : ∀ x0 x1 x2 (xo : Vec Ideal S1x128 .f32), step x0 x1 x2 xo j = xo j + g x0 x1 x2) :
    ∀ (n : ℕ) (h : n < cfg0.N), outsAt0 V c n h j = ∑ k : Fin (n + 1), ptval V c g k.val (by have := k.isLt; omega)
  | 0, h => by
    rw [outsAt0_A V c ⟨0, h⟩ rfl, out_A, hg]
    rw [Fin.sum_univ_one]
    show Ideal.ofBits .f32 0x00000000#32 + _ = _
    rw [Ideal.ofBits_zero_f32, zero_add]
    rfl
  | n + 1, h => by
    have hN : cfg0.N = 64 := N_0
    have hB : ¬(⟨n + 1, h⟩ : Fin cfg0.N).val % 64 = 0 := by dsimp only; omega
    rw [outsAt0_B V c ⟨n + 1, h⟩ hB, out_B, hg, Fin.sum_univ_castSucc]
    congr 1
    exact outsAt_lane j g hg n _
end Lanes

section LaneVec

/-- The sum of a block's entries, row by row. -/
def bsum (x : FVec Ideal S32x16384 .f32) : EReal := ∑ r : Fin 32, ∑ l : Fin 16384, x (ix2 r l)

/-- The block of validity bits as floats: 1 where the label weight is positive, 0 elsewhere. -/
abbrev vblock (x2 : Vec Ideal S32x16384 .f32) : FVec Ideal S32x16384 .f32 :=
  sitofp (F := Ideal) FTy.f32 (extui 32 (cmpf (F := Ideal) CmpFPredicate.ogt x2 (broadcast S32x16384 (FloatOps.ofBits FTy.f32 0x00000000#32))) natLt_1_32)

/-- What one grid point adds at lane `l`: the four block statistics in lanes 0 to 3, zero in every other lane. -/
def lanes (x0 x1 x2 : Vec Ideal S32x16384 .f32) (l : Fin 128) : EReal :=
  if l.val = 3 then bsum (vblock x2) else if l.val = 2 then bsum (mulf x0 x1) else if l.val = 1 then bsum x1
    else if l.val = 0 then bsum x0 else Ideal.ofBits .f32 0x00000000#32

/-- One grid point leaves, at lane `l`, the old entry plus the point's lane value: the payload places each block
    statistic in its lane by comparing the lane number with 3, 2, 1, 0 in turn, over a row of zeros. -/
theorem step_apply (x0 x1 x2 : Vec Ideal S32x16384 .f32) (xo : Vec Ideal S1x128 .f32) (l : Fin 128) :
    step x0 x1 x2 xo (ix2 (0 : Fin 1) l) = xo (ix2 (0 : Fin 1) l) + lanes x0 x1 x2 l := by
  unfold step k0_pay1 k0_pay3 k0_pay4 k0_pay5 k0_pay6 k0_pay7
  dsimp only
  rw [addf_apply, shapeCast_self]
  congr 1
  unfold lanes
  refine (KBlock.laneSel 3 (by decide) _ _ _ _ _ l).trans (if_congr Iff.rfl (KBlock.fullSum _ _ _ _ _ _ _ _) ?_)
  refine (KBlock.laneSel 2 (by decide) _ _ _ _ _ l).trans (if_congr Iff.rfl (KBlock.fullSum _ _ _ _ _ _ _ _) ?_)
  refine (KBlock.laneSel 1 (by decide) _ _ _ _ _ l).trans (if_congr Iff.rfl (KBlock.fullSum _ _ _ _ _ _ _ _) ?_)
  exact (KBlock.laneSel 0 (by decide) _ _ _ _ _ l).trans (if_congr Iff.rfl (KBlock.fullSum _ _ _ _ _ _ _ _) rfl)

theorem lanes_0 (x0 x1 x2 : Vec Ideal S32x16384 .f32) : lanes x0 x1 x2 0 = bsum x0 := by
  unfold lanes
  rw [if_neg (show ¬(0 : Fin 128).val = 3 by decide), if_neg (show ¬(0 : Fin 128).val = 2 by decide),
    if_neg (show ¬(0 : Fin 128).val = 1 by decide), if_pos (show (0 : Fin 128).val = 0 by decide)]

theorem lanes_1 (x0 x1 x2 : Vec Ideal S32x16384 .f32) : lanes x0 x1 x2 1 = bsum x1 := by
  unfold lanes
  rw [if_neg (show ¬(1 : Fin 128).val = 3 by decide), if_neg (show ¬(1 : Fin 128).val = 2 by decide),
    if_pos (show (1 : Fin 128).val = 1 by decide)]

theorem lanes_2 (x0 x1 x2 : Vec Ideal S32x16384 .f32) : lanes x0 x1 x2 2 = bsum (mulf x0 x1) := by
  unfold lanes
  rw [if_neg (show ¬(2 : Fin 128).val = 3 by decide), if_pos (show (2 : Fin 128).val = 2 by decide)]

theorem lanes_3 (x0 x1 x2 : Vec Ideal S32x16384 .f32) : lanes x0 x1 x2 3 = bsum (vblock x2) := by
  unfold lanes
  rw [if_pos (show (3 : Fin 128).val = 3 by decide)]

/-- An entry of the validity block is the validity bit of the label weight there, as the number 0 or 1. -/
theorem vblock_apply (x2 : Vec Ideal S32x16384 .f32) (i : S32x16384.Idx) :
    vblock x2 i = Cert.Spec.b2f (Cert.Spec.valid (x2 i)) := by
  show (((BitVec.setWidth 32 (Cert.Spec.valid (x2 i))).toInt : ℝ) : EReal) = _
  exact Cert.Spec.b2f_toInt_setWidth _

end LaneVec

section Final
variable (V : (c : Dev nD) → (b : Ref sig .tc) → Buf (Elt Ideal) ((c : Thread nD τ).loc b)) (c : Dev nD)

/-- The three argument arrays, as functions of the index pair. -/
abbrev arrP : Cert.Spec.SA.Idx → EReal := V c main_arg0
abbrev arrT : Cert.Spec.SA.Idx → EReal := V c main_arg1
abbrev arrW : Cert.Spec.SA.Idx → EReal := V c main_arg2

/-- The block index maps of the three inputs: row block 0, column block the grid point. -/
theorem hidx : ∀ t : Fin cfg0.N,
    (win0_0.index t 0 = 0 ∧ win0_0.index t 1 = t.val) ∧ (win0_1.index t 0 = 0 ∧ win0_1.index t 1 = t.val)
      ∧ (win0_2.index t 0 = 0 ∧ win0_2.index t 1 = t.val) :=
  (by decide +kernel : ∀ t : Fin grid0.N,
    (win0_0.index t 0 = 0 ∧ win0_0.index t 1 = t.val) ∧ (win0_1.index t 0 = 0 ∧ win0_1.index t 1 = t.val)
      ∧ (win0_2.index t 0 = 0 ∧ win0_2.index t 1 = t.val))

/-- Column `l` of the block of point `t`, as a column of the array. -/
abbrev col (t : Fin cfg0.N) (l : Fin 16384) : Fin 1048576 :=
  ⟨t.val * 16384 + l.val, by have h1 := t.isLt; have h2 : cfg0.N = 64 := N_0; have h3 := l.isLt; omega⟩

/-- An input's block at point `t` read at (r, l) is the array at (r, 16384·t + l). -/
theorem iblk0_0 (t : Fin cfg0.N) (r : Fin 32) (l : Fin 16384) :
    iblk0 V c 0 t (ix2 r l) = arrP V c (ix2 r (col t l)) := by
  have hi := (hidx t).1
  unfold iblk0
  rw [View.read_apply]
  show V c main_arg0 _ = V c main_arg0 _
  congr 1
  funext a
  apply Fin.ext
  match a with
  | ⟨0, _⟩ => show win0_0.index t 0 * 32 + 1 * r.val = r.val; rw [hi.1]; omega
  | ⟨1, _⟩ => show win0_0.index t 1 * 16384 + 1 * l.val = t.val * 16384 + l.val; rw [hi.2]; omega

theorem iblk0_1 (t : Fin cfg0.N) (r : Fin 32) (l : Fin 16384) :
    iblk0 V c 1 t (ix2 r l) = arrT V c (ix2 r (col t l)) := by
  have hi := (hidx t).2.1
  unfold iblk0
  rw [View.read_apply]
  show V c main_arg1 _ = V c main_arg1 _
  congr 1
  funext a
  apply Fin.ext
  match a with
  | ⟨0, _⟩ => show win0_1.index t 0 * 32 + 1 * r.val = r.val; rw [hi.1]; omega
  | ⟨1, _⟩ => show win0_1.index t 1 * 16384 + 1 * l.val = t.val * 16384 + l.val; rw [hi.2]; omega

theorem iblk0_2 (t : Fin cfg0.N) (r : Fin 32) (l : Fin 16384) :
    iblk0 V c 2 t (ix2 r l) = arrW V c (ix2 r (col t l)) := by
  have hi := (hidx t).2.2
  unfold iblk0
  rw [View.read_apply]
  show V c main_arg2 _ = V c main_arg2 _
  congr 1
  funext a
  apply Fin.ext
  match a with
  | ⟨0, _⟩ => show win0_2.index t 0 * 32 + 1 * r.val = r.val; rw [hi.1]; omega
  | ⟨1, _⟩ => show win0_2.index t 1 * 16384 + 1 * l.val = t.val * 16384 + l.val; rw [hi.2]; omega

/-- Lane `l` of the result array is the sum of `f` over the whole array, whenever one point adds to that lane the
    sum of `f` over the point's column block. -/
theorem lane_total (l : Fin 128) (g : Vec Ideal S32x16384 .f32 → Vec Ideal S32x16384 .f32 → Vec Ideal S32x16384 .f32 → EReal)
    (hg : ∀ x0 x1 x2, lanes x0 x1 x2 l = g x0 x1 x2) (f : Cert.Spec.SA.Idx → EReal)
    (hf : ∀ t : Fin cfg0.N, g (iblk0 V c 0 t) (iblk0 V c 1 t) (iblk0 V c 2 t) = ∑ r : Fin 32, ∑ l : Fin 16384, f (ix2 r (col t l))) :
    (dat0 V c).arrAt 3 cfg0.N (ix2 (0 : Fin 1) l) = Cert.Spec.total f := by
  rw [final_o]
  show outsAt0 V c 63 h63 (ix2 (0 : Fin 1) l) = _
  refine (outsAt_lane V c (ix2 (0 : Fin 1) l) g (fun x0 x1 x2 xo => by rw [step_apply, hg]) 63 h63).trans ?_
  rw [← Cert.Spec.total_blocks]
  refine Finset.sum_congr rfl fun k _ => ?_
  exact hf ⟨k.val, _⟩

end Final

section Lanes
variable (V : (c : Dev nD) → (b : Ref sig .tc) → Buf (Elt Ideal) ((c : Thread nD τ).loc b)) (c : Dev nD)

theorem lane0 : (dat0 V c).arrAt 3 cfg0.N (ix2 (0 : Fin 1) (0 : Fin 128)) = Cert.Spec.sumP (V c main_arg0) :=
  lane_total V c 0 (fun x0 _ _ => bsum x0) lanes_0 (arrP V c) fun t =>
    Finset.sum_congr rfl fun r _ => Finset.sum_congr rfl fun l _ => iblk0_0 V c t r l

theorem lane1 : (dat0 V c).arrAt 3 cfg0.N (ix2 (0 : Fin 1) (1 : Fin 128)) = Cert.Spec.sumT (V c main_arg1) :=
  lane_total V c 1 (fun _ x1 _ => bsum x1) lanes_1 (arrT V c) fun t =>
    Finset.sum_congr rfl fun r _ => Finset.sum_congr rfl fun l _ => iblk0_1 V c t r l

theorem lane2 : (dat0 V c).arrAt 3 cfg0.N (ix2 (0 : Fin 1) (2 : Fin 128)) = Cert.Spec.sumPT (V c main_arg0) (V c main_arg1) :=
  lane_total V c 2 (fun x0 x1 _ => bsum (mulf x0 x1)) lanes_2 (fun i => arrP V c i * arrT V c i) fun t =>
    Finset.sum_congr rfl fun r _ => Finset.sum_congr rfl fun l _ =>
      congrArg₂ (fun a b : EReal => a * b) (iblk0_0 V c t r l) (iblk0_1 V c t r l)

theorem lane3 : (dat0 V c).arrAt 3 cfg0.N (ix2 (0 : Fin 1) (3 : Fin 128)) = Cert.Spec.sumV (V c main_arg2) :=
  lane_total V c 3 (fun _ _ x2 => bsum (vblock x2)) lanes_3 (fun i => Cert.Spec.b2f (Cert.Spec.valid (arrW V c i))) fun t =>
    Finset.sum_congr rfl fun r _ => Finset.sum_congr rfl fun l _ => by
      show vblock (iblk0 V c 2 t) (ix2 r l) = Cert.Spec.b2f (Cert.Spec.valid (arrW V c (ix2 r (col t l))))
      rw [vblock_apply, iblk0_2]

end Lanes

end Cert.KernelIdeal.Reg0

end
-- ==== Proof.Reg1.lean ====
/-
  Region 1 (the histogram pass) read as values: lane b of its [1,128] output array ends holding the count of bin b.

  The body, at each of the 64 column blocks [32, 16384] of pred, target and label_weight, forms for every element
  the proxy g = |ratio·p − t|, its bin word clamp(⌊10·g⌋, 0, 9) and its in-range indicator, sums the indicator over
  the elements of each bin (rows first, then the column of row sums), scatters the ten sums to lanes 0 … 9 of a
  lane vector and adds that vector to the output block, which it zeroes at the first block and writes back after
  the last. So lane b of the output is the sum over the 64 blocks of the block's count of bin b, which — a sum over
  the extended reals does not depend on its grouping — is the count over the whole array.
-/
import proofs.«119492_j55929064129141_2_alg».proof.Proof.Gen.KernelIdeal.Frame
import proofs.«119492_j55929064129141_2_alg».proof.Proof.Spec
import proofs.«119492_j55929064129141_2_alg».proof.Proof.SumLemmas
import proofs.«119492_j55929064129141_2_alg».proof.Proof.KBlock
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Reg1

open Cert.KernelIdeal Cert.KernelIdeal.Gen

variable {F : FTy → Type} [FloatOps F]

theorem hz : (![0, 0] : Fin 2 → Nat) = fun _ => 0 := funext fun a => by fin_cases a <;> rfl

/-- The [1,1] cell of the parameter block the body loads: its element (0, 0). -/
abbrev cell (x3 : Vec F S1x128 .f32) : Vec F S1x1 .f32 :=
  View.ld x3 (Rect.unit (s := S1x128) ![0, 0] S1x1.size inb_S1x128_S1x1_0_0)

/-- What one grid point leaves in the output block holding `xo`: `xo` plus the vector whose lane b is the block's
    count of bin b, as a function of the three input blocks and the parameter cell. -/
def step (x0 x1 x2 : Vec F S32x16384 .f32) (v6 : Vec F S1x1 .f32) (xo : Vec F S1x128 .f32) : FVec F S1x128 .f32 :=
  k1_pay1 (k1_pay9 (k1_pay4 x0 x1 v6) (k1_pay5 x0 x1 x2 v6)) (k1_pay10 (k1_pay4 x0 x1 v6) (k1_pay5 x0 x1 x2 v6))
    (k1_pay11 (k1_pay4 x0 x1 v6) (k1_pay5 x0 x1 x2 v6)) (k1_pay12 (k1_pay4 x0 x1 v6) (k1_pay5 x0 x1 x2 v6))
    (k1_pay14 (k1_pay5 x0 x1 x2 v6) (k1_pay13 (k1_pay4 x0 x1 v6)) (Scalar.ofBits .f32 0x00000000#32))
    (k1_pay15 (k1_pay4 x0 x1 v6) (k1_pay5 x0 x1 x2 v6)) (k1_pay16 (k1_pay4 x0 x1 v6) (k1_pay5 x0 x1 x2 v6))
    (k1_pay17 (k1_pay4 x0 x1 v6) (k1_pay5 x0 x1 x2 v6)) (iota .tc S1x128 32 [1] iota_S1x128_d1_w32)
    (k1_pay18 (k1_pay6 x0 x1 x2 v6) (k1_pay8 (k1_pay5 x0 x1 x2 v6) (k1_pay7 x0 x1 v6) (Scalar.ofBits .f32 0x00000000#32)))
    2#32 xo

/-- A point after the first: the body adds to what the point before left. -/
theorem out_B (c : Dev nD) (i : grid1.Coords) (a1 : Memref sig .tc .vmem S32x16384 .f32) (h1 : a1.IsWhole)
    (a2 : Memref sig .tc .vmem S32x16384 .f32) (h2 : a2.IsWhole) (a3 : Memref sig .tc .vmem S32x16384 .f32) (h3 : a3.IsWhole)
    (a4 : Memref sig .tc .vmem S1x128 .f32) (h4 : a4.IsWhole) (a5 : Memref sig .tc .vmem S1x128 .f32) (h5 : a5.IsWhole)
    (hc : ¬cond1_0 i) (x0 x1 x2 : Vec F S32x16384 .f32) (x3 xo : Vec F S1x128 .f32) :
    out1_B_4 c i a1 h1 a2 h2 a3 h3 a4 h4 a5 h5 hc x0 x1 x2 x3 xo = step x0 x1 x2 (cell x3) xo := by
  unfold out1_B_4
  rw [View.read_writes_eq_canon _ _ _ (cover1_B_4 c i a1 h1 a2 h2 a3 h3 a4 h4 a5 h5 hc x0 x1 x2 x3 xo)]
  unfold kernelRun1_B
  dsimp only
  sl_unfold_words
  rw [View.canon_unit_zero hz]
  simp only [View.readAt_eq_ld, h1.read_unread, h2.read_unread, h3.read_unread, h4.read_unread, h5.read_unread,
    View.ld_unit_zero (S := S1x128) hz, View.ld_unit_zero (S := S32x16384) hz, shapeCast_self]
  rfl

/-- The first point: the body stores the zero block, then adds to it. -/
theorem out_A (c : Dev nD) (i : grid1.Coords) (a1 : Memref sig .tc .vmem S32x16384 .f32) (h1 : a1.IsWhole)
    (a2 : Memref sig .tc .vmem S32x16384 .f32) (h2 : a2.IsWhole) (a3 : Memref sig .tc .vmem S32x16384 .f32) (h3 : a3.IsWhole)
    (a4 : Memref sig .tc .vmem S1x128 .f32) (h4 : a4.IsWhole) (a5 : Memref sig .tc .vmem S1x128 .f32) (h5 : a5.IsWhole)
    (hc : cond1_0 i) (x0 x1 x2 : Vec F S32x16384 .f32) (x3 : Vec F S1x128 .f32) :
    out1_A_4 c i a1 h1 a2 h2 a3 h3 a4 h4 a5 h5 hc x0 x1 x2 x3 = step x0 x1 x2 (cell x3) k1_pay2 := by
  unfold out1_A_4
  rw [View.read_writes_eq_canon _ _ _ (cover1_A_4 c i a1 h1 a2 h2 a3 h3 a4 h4 a5 h5 hc x0 x1 x2 x3)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h4.read_unread,
    View.ld_unit_zero (S := S1x128) hz, View.ld_unit_zero (S := S32x16384) hz, shapeCast_self]
  rfl

section Run

variable (V : (c : Dev nD) → (b : Ref sig .tc) → Buf (Elt F) ((c : Thread nD τ).loc b)) (c : Dev nD)

/-- The last grid point. -/
abbrev tLast : Fin cfg1.N := ⟨63, by rw [show cfg1.N = 64 from N_1]; decide⟩

/-- What the output block holds after the last point, as contents of the output array (its one block is the array). -/
abbrev result : Buf (Elt F) ((c : Thread nD τ).loc main_v18) := outsAt1 V c 63 tLast.isLt

/-- The one write-back, at the last point, writes it: block (0, 0) of the [1,128] array through zero offsets is the array. -/
theorem flushed_eq (t : Fin cfg1.N) (hf : (cfg1.win 4).flush t = true) :
    (dat1 V c).flushed 4 t = ((cfg1.win 4).blk t).view.read (Elt F) (result V c) := by
  have hN : cfg1.N = 64 := N_1
  have h3 : t.val = 63 := by have := (flush1_4 t).mp hf; have := t.isLt; omega
  obtain rfl : t = tLast := Fin.ext h3
  show (cfg1.win 4).cut (grid1.coords tLast) ((dat1 V c).after 4 tLast) = _
  rw [after1_4]
  have hz' : (fun a => win1_4.index tLast a * main_v18.ty.shape.size a) = fun _ => 0 := funext fun a => by fin_cases a <;> decide
  exact (Memref.read_access_unit_zero (Elt F) main_v18 hz' (fun a => by rw [congrFun hz' a]; simp) (result V c)).symm

/-- So the output array ends holding what the block holds after the last point. -/
theorem final_o : (dat1 V c).arrAt 4 cfg1.N = result V c :=
  (dat1 V c).arrAt_eq_of_cover 4 (result V c) (flushed_eq V c) fun i =>
    ⟨tLast, (flush1_4 tLast).mpr rfl, by
      show i ∈ ((View.whole main_v18).slice (win1_4.rect tLast)).set
      rw [View.set_slice_whole, Rect.mem_set_unit]
      intro a
      have h0 : (i 0 : Nat) < 1 := (i 0).isLt
      have h1 : (i 1 : Nat) < 128 := (i 1).isLt
      match a with
      | ⟨0, _⟩ => show win1_4.index tLast 0 * win1_4.size 0 ≤ (i 0 : Nat) ∧ (i 0 : Nat) < win1_4.index tLast 0 * win1_4.size 0 + win1_4.xsize (grid1.coords tLast) 0
                  rw [show win1_4.index tLast 0 * win1_4.size 0 = 0 from by decide +kernel, show win1_4.xsize (grid1.coords tLast) 0 = 1 from by decide +kernel]; omega
      | ⟨1, _⟩ => show win1_4.index tLast 1 * win1_4.size 1 ≤ (i 1 : Nat) ∧ (i 1 : Nat) < win1_4.index tLast 1 * win1_4.size 1 + win1_4.xsize (grid1.coords tLast) 1
                  rw [show win1_4.index tLast 1 * win1_4.size 1 = 0 from by decide +kernel, show win1_4.xsize (grid1.coords tLast) 1 = 128 from by decide +kernel]; omega⟩

/-- The block indices of the three input windows at a grid point: column block `t` of row block 0. -/
theorem index_0 : ∀ t : Fin cfg1.N, win1_0.index t 0 = 0 ∧ win1_0.index t 1 = t.val :=
  (by decide +kernel : ∀ t : Fin grid1.N, win1_0.index t 0 = 0 ∧ win1_0.index t 1 = t.val)
theorem index_1 : ∀ t : Fin cfg1.N, win1_1.index t 0 = 0 ∧ win1_1.index t 1 = t.val :=
  (by decide +kernel : ∀ t : Fin grid1.N, win1_1.index t 0 = 0 ∧ win1_1.index t 1 = t.val)
theorem index_2 : ∀ t : Fin cfg1.N, win1_2.index t 0 = 0 ∧ win1_2.index t 1 = t.val :=
  (by decide +kernel : ∀ t : Fin grid1.N, win1_2.index t 0 = 0 ∧ win1_2.index t 1 = t.val)
/-- The parameter window's block never moves. -/
theorem index_3 : ∀ t : Fin cfg1.N, win1_3.index t 0 = 0 ∧ win1_3.index t 1 = 0 :=
  (by decide +kernel : ∀ t : Fin grid1.N, win1_3.index t 0 = 0 ∧ win1_3.index t 1 = 0)

theorem col_lt (t : Fin cfg1.N) (l : Fin 16384) : t.val * 16384 + l.val < 1048576 := by
  have := t.isLt; have : cfg1.N = 64 := N_1; have := l.isLt; omega

/-- An input block at (r, l) is its array at (r, 16384 t + l). -/
theorem iblk_0 (t : Fin cfg1.N) (r : Fin 32) (l : Fin 16384) :
    (iblk1 V c 0 t : Vec F S32x16384 .f32) (ix2 r l) = V c main_arg0 (ix2 r (⟨t.val * 16384 + l.val, col_lt t l⟩ : Fin 1048576)) := by
  unfold iblk1
  rw [View.read_apply]
  show V c main_arg0 _ = V c main_arg0 _
  congr 1
  funext a
  apply Fin.ext
  match a with
  | ⟨0, _⟩ => show win1_0.index t 0 * 32 + 1 * r.val = r.val; rw [(index_0 t).1]; omega
  | ⟨1, _⟩ => show win1_0.index t 1 * 16384 + 1 * l.val = t.val * 16384 + l.val; rw [(index_0 t).2]; omega
theorem iblk_1 (t : Fin cfg1.N) (r : Fin 32) (l : Fin 16384) :
    (iblk1 V c 1 t : Vec F S32x16384 .f32) (ix2 r l) = V c main_arg1 (ix2 r (⟨t.val * 16384 + l.val, col_lt t l⟩ : Fin 1048576)) := by
  unfold iblk1
  rw [View.read_apply]
  show V c main_arg1 _ = V c main_arg1 _
  congr 1
  funext a
  apply Fin.ext
  match a with
  | ⟨0, _⟩ => show win1_1.index t 0 * 32 + 1 * r.val = r.val; rw [(index_1 t).1]; omega
  | ⟨1, _⟩ => show win1_1.index t 1 * 16384 + 1 * l.val = t.val * 16384 + l.val; rw [(index_1 t).2]; omega
theorem iblk_2 (t : Fin cfg1.N) (r : Fin 32) (l : Fin 16384) :
    (iblk1 V c 2 t : Vec F S32x16384 .f32) (ix2 r l) = V c main_arg2 (ix2 r (⟨t.val * 16384 + l.val, col_lt t l⟩ : Fin 1048576)) := by
  unfold iblk1
  rw [View.read_apply]
  show V c main_arg2 _ = V c main_arg2 _
  congr 1
  funext a
  apply Fin.ext
  match a with
  | ⟨0, _⟩ => show win1_2.index t 0 * 32 + 1 * r.val = r.val; rw [(index_2 t).1]; omega
  | ⟨1, _⟩ => show win1_2.index t 1 * 16384 + 1 * l.val = t.val * 16384 + l.val; rw [(index_2 t).2]; omega
/-- The parameter cell the body loads is element (0, 0) of the parameter array. -/
theorem cell_3 (t : Fin cfg1.N) :
    cell (iblk1 V c 3 t : Vec F S1x128 .f32) (ix2 (0 : Fin 1) (0 : Fin 1)) = V c main_v17 (ix2 (0 : Fin 1) (0 : Fin 128)) := by
  unfold iblk1
  show ((cfg1.win 3).blk t).view.read (Elt F) (V c main_v17) _ = _
  rw [View.read_apply]
  show V c main_v17 _ = V c main_v17 _
  congr 1
  funext a
  apply Fin.ext
  match a with
  | ⟨0, _⟩ => show win1_3.index t 0 * 1 + 1 * (0 + 1 * 0) = 0; rw [(index_3 t).1]
  | ⟨1, _⟩ => show win1_3.index t 1 * 128 + 1 * (0 + 1 * 0) = 0; rw [(index_3 t).2]

end Run

/-! ## The arithmetic of one grid point, over the extended reals -/

/-- The block statistic of a bin word `v`: the two-stage sum of `v26` over the elements whose bin word `v24` is `v`. -/
def stat (v24 : IVec S32x16384 32) (v26 : FVec F S32x16384 .f32) (v : BitVec 32) : FVec F S1x1 .f32 :=
  shapeCast S1x1 (multiReduction .add [0] S1 (shapeCast S32x1 (multiReduction .add [1] S32
    (select (cmpi .eq v24 (broadcast S32x16384 v)) v26 (broadcast S32x16384 (Scalar.ofBits .f32 0x00000000#32)))
    0x00000000#32 reduces_S32x16384_S32 (.inl rfl) rfl) shapeCasts_S32_S32x1) 0x00000000#32 reduces_S32x1_S1 (.inl rfl) rfl)
    shapeCasts_S1_S1x1

/-- Every one of the body's ten block statistics is `stat` at its bin word. -/
theorem step_eq_stat (x0 x1 x2 : Vec F S32x16384 .f32) (v6 : Vec F S1x1 .f32) (xo : Vec F S1x128 .f32) :
    step x0 x1 x2 v6 xo
      = k1_pay1 (stat (k1_pay4 x0 x1 v6) (k1_pay5 x0 x1 x2 v6) 2#32) (stat (k1_pay4 x0 x1 v6) (k1_pay5 x0 x1 x2 v6) 3#32)
          (stat (k1_pay4 x0 x1 v6) (k1_pay5 x0 x1 x2 v6) 4#32) (stat (k1_pay4 x0 x1 v6) (k1_pay5 x0 x1 x2 v6) 5#32)
          (stat (k1_pay4 x0 x1 v6) (k1_pay5 x0 x1 x2 v6) 6#32) (stat (k1_pay4 x0 x1 v6) (k1_pay5 x0 x1 x2 v6) 7#32)
          (stat (k1_pay4 x0 x1 v6) (k1_pay5 x0 x1 x2 v6) 8#32) (stat (k1_pay4 x0 x1 v6) (k1_pay5 x0 x1 x2 v6) 9#32)
          (iota .tc S1x128 32 [1] iota_S1x128_d1_w32)
          (k1_pay18 (stat (k1_pay4 x0 x1 v6) (k1_pay5 x0 x1 x2 v6) 0#32) (stat (k1_pay4 x0 x1 v6) (k1_pay5 x0 x1 x2 v6) 1#32))
          2#32 xo := rfl

theorem stat_apply (v24 : IVec S32x16384 32) (v26 : FVec Ideal S32x16384 .f32) (v : BitVec 32) (j : S1x1.Idx) :
    stat v24 v26 v j = ∑ r : Fin 32, ∑ l : Fin 16384, if v24 (ix2 r l) = v then v26 (ix2 r l) else 0 := by
  unfold stat
  refine (KBlock.fullSum _ _ _ _ _ _ _ j).trans ?_
  refine Finset.sum_congr rfl fun r _ => Finset.sum_congr rfl fun l _ => ?_
  show Scalar.select (IntOp.cmpi .eq (v24 (ix2 r l)) v) (v26 (ix2 r l)) (Ideal.ofBits .f32 0x00000000#32) = _
  rw [KBlock.select_cmpi_eq, Ideal.ofBits_zero_f32]

/-- The parameter cell's one element, however its index is spelt. -/
theorem extract_cell (v6 : Vec F S1x1 .f32) : extractAt ![0, 0] v6 inpos_S1x1_p0_0 = v6 (ix2 (0 : Fin 1) (0 : Fin 1)) :=
  congrArg v6 (funext fun a => by
    match a with
    | ⟨0, _⟩ => rfl
    | ⟨1, _⟩ => rfl)

/-- The body's bin word of an element is the specification's. -/
theorem bin_apply (x0 x1 : Vec Ideal S32x16384 .f32) (v6 : Vec Ideal S1x1 .f32) (i : S32x16384.Idx) :
    k1_pay4 x0 x1 v6 i = Cert.Spec.binOf (v6 (ix2 (0 : Fin 1) (0 : Fin 1))) (x0 i) (x1 i) := by
  rw [← extract_cell v6]
  rfl

/-- The body's in-range indicator of an element, as a number, is the specification's. -/
theorem inr_apply (x0 x1 x2 : Vec Ideal S32x16384 .f32) (v6 : Vec Ideal S1x1 .f32) (i : S32x16384.Idx) :
    k1_pay5 x0 x1 x2 v6 i = Cert.Spec.b2f (Cert.Spec.inr (v6 (ix2 (0 : Fin 1) (0 : Fin 1))) (x0 i) (x1 i) (x2 i)) := by
  rw [← Cert.Spec.b2f_toInt_setWidth, ← extract_cell v6]
  rfl

/-- A [1,1] statistic broadcast along the 128 lanes reads its one element at every lane. -/
theorem bcast_cell (u : FVec Ideal S1x1 .f32) (j : S1x128.Idx) :
    broadcastTo S1x128 u broadcasts_S1x1_S1x128 j = u (ix2 (0 : Fin 1) (0 : Fin 1)) :=
  broadcastTo_apply u _ j _ (fun a => by
    match a with
    | ⟨0, _⟩ => rfl
    | ⟨1, _⟩ => rfl)

theorem cmpi_apply {s : Shape} {w : Nat} (p : CmpIPredicate) (x y : IVec s w) (i : s.Idx) :
    cmpi p x y i = IntOp.cmpi p (x i) (y i) := rfl

/-- Lane b of the output block, b < 10. -/
abbrev laneIx (b : Fin 10) : S1x128.Idx := ix2 (0 : Fin 1) (⟨b.val, by omega⟩ : Fin 128)

/-- The lane counter reads the lane's number. -/
theorem iota_lane (b : Fin 10) : iota .tc S1x128 32 [1] iota_S1x128_d1_w32 (laneIx b) = BitVec.ofNat 32 b.val :=
  iota_single_apply .tc S1x128 32 1 iota_S1x128_d1_w32 (laneIx b)

/-- The lane select chain: lane b of what the body stores is the old lane b plus statistic b. -/
theorem lane_chain (s : ℕ → FVec Ideal S1x1 .f32) (xo : Vec Ideal S1x128 .f32) (b : Fin 10) :
    k1_pay1 (s 2) (s 3) (s 4) (s 5) (s 6) (s 7) (s 8) (s 9) (iota .tc S1x128 32 [1] iota_S1x128_d1_w32)
        (k1_pay18 (s 0) (s 1)) 2#32 xo (laneIx b)
      = xo (laneIx b) + s b.val (ix2 (0 : Fin 1) (0 : Fin 1)) := by
  unfold k1_pay1 k1_pay18
  simp only [shapeCast_self, addf_apply, select_apply, bcast_cell, cmpi_apply, broadcast_apply, KBlock.select_cmpi_eq]
  rw [iota_lane b]
  fin_cases b <;> simp

/-- One block's count of the bin word `v` under the ratio `r`: the in-range indicator summed over the block's
    elements whose bin is `v`. -/
def blockCount (x0 x1 x2 : Vec Ideal S32x16384 .f32) (r : EReal) (v : BitVec 32) : EReal :=
  ∑ r' : Fin 32, ∑ l : Fin 16384,
    if Cert.Spec.binOf r (x0 (ix2 r' l)) (x1 (ix2 r' l)) = v
      then Cert.Spec.b2f (Cert.Spec.inr r (x0 (ix2 r' l)) (x1 (ix2 r' l)) (x2 (ix2 r' l))) else 0

/-- Lane b of what one grid point leaves: the old lane b plus the block's count of bin b. -/
theorem step_lane (x0 x1 x2 : Vec Ideal S32x16384 .f32) (v6 : Vec Ideal S1x1 .f32) (xo : Vec Ideal S1x128 .f32) (b : Fin 10) :
    step x0 x1 x2 v6 xo (laneIx b)
      = xo (laneIx b) + blockCount x0 x1 x2 (v6 (ix2 (0 : Fin 1) (0 : Fin 1))) (BitVec.ofNat 32 b.val) := by
  rw [step_eq_stat]
  refine (lane_chain (fun k => stat (k1_pay4 x0 x1 v6) (k1_pay5 x0 x1 x2 v6) (BitVec.ofNat 32 k)) xo b).trans ?_
  refine congrArg (HAdd.hAdd (xo (laneIx b))) ?_
  show stat (k1_pay4 x0 x1 v6) (k1_pay5 x0 x1 x2 v6) (BitVec.ofNat 32 b.val) _ = _
  rw [stat_apply]
  unfold blockCount
  refine Finset.sum_congr rfl fun r _ => Finset.sum_congr rfl fun l _ => ?_
  rw [bin_apply, inr_apply]

/-- The zero block the first point stores reads 0. -/
theorem zero_apply (j : S1x128.Idx) : (k1_pay2 : FVec Ideal S1x128 .f32) j = 0 := Ideal.ofBits_zero_f32

/-! ## The run of the grid: lane b of the output array is the histogram count of bin b -/

section Count

variable (V : (c : Dev nD) → (b : Ref sig .tc) → Buf (Elt Ideal) ((c : Thread nD τ).loc b)) (c : Dev nD)

/-- Grid point k's count of bin b (0 past the grid). -/
def pt (b : Fin 10) (k : ℕ) : EReal :=
  if h : k < cfg1.N then
    blockCount (iblk1 V c 0 ⟨k, h⟩) (iblk1 V c 1 ⟨k, h⟩) (iblk1 V c 2 ⟨k, h⟩)
      (cell (iblk1 V c 3 ⟨k, h⟩ : Vec Ideal S1x128 .f32) (ix2 (0 : Fin 1) (0 : Fin 1))) (BitVec.ofNat 32 b.val)
  else 0

/-- Lane b of the output block after point n is the sum of the points' counts up to n: by induction on the point. -/
theorem outsAt_lane (b : Fin 10) : ∀ (n : ℕ) (h : n < cfg1.N),
    outsAt1 V c n h (laneIx b) = ∑ k ∈ Finset.range (n + 1), pt V c b k
  | 0, h => by
    rw [outsAt1_A V c ⟨0, h⟩ rfl, out_A, step_lane, zero_apply, zero_add, Finset.sum_range_one]
    unfold pt
    rw [dif_pos h]
  | n + 1, h => by
    have hN : cfg1.N = 64 := N_1
    have hB : ¬(⟨n + 1, h⟩ : Fin cfg1.N).val % 64 = 0 := by dsimp only; omega
    rw [outsAt1_B V c ⟨n + 1, h⟩ hB, out_B, step_lane, Finset.sum_range_succ]
    show outsAt1 V c n _ (laneIx b) + _ = _
    rw [outsAt_lane b n]
    refine congrArg (HAdd.hAdd _) ?_
    unfold pt
    rw [dif_pos h]

end Count

variable (V : (c : Dev nD) → (b : Ref sig .tc) → Buf (Elt Ideal) ((c : Thread nD τ).loc b)) (c : Dev nD)

theorem lane (b : Fin 10) :
    (dat1 V c).arrAt 4 cfg1.N (ix2 (0 : Fin 1) (⟨b.val, by omega⟩ : Fin 128))
      = Cert.Spec.count (V c main_arg0) (V c main_arg1) (V c main_arg2) (V c main_v17 (ix2 (0 : Fin 1) (0 : Fin 128))) (BitVec.ofNat 32 b.val) := by
  rw [final_o]
  show outsAt1 V c 63 _ (laneIx b) = _
  rw [outsAt_lane]
  unfold Cert.Spec.count
  rw [← Cert.Spec.total_blocks]
  rw [Finset.sum_range]
  refine Finset.sum_congr rfl fun t _ => ?_
  have hN : cfg1.N = 64 := N_1
  unfold pt
  rw [dif_pos (by have := t.isLt; omega)]
  unfold blockCount
  refine Finset.sum_congr rfl fun r _ => Finset.sum_congr rfl fun l _ => ?_
  rw [iblk_0, iblk_1, iblk_2, cell_3]

end Cert.KernelIdeal.Reg1

end
-- ==== Proof.Reg2.lean ====
/-
  The third region's value. Lane 0 of its [1,128] output array ends at Σ 2·p·t·weight over every element of the
  [32, 1048576] arrays. Each of the 64 grid points adds, to lane 0 of what the point before left (the zero block at the
  first point), the sum over its [32, 16384] column blocks of 2·p·t·weight, where the weight's ratio, total and number
  of non-empty bins are lanes 0, 1, 2 of the row of parameters and its ten counts lanes 0 … 9 of the row of counts;
  the one write-back, after the last point, leaves that running sum in the array; and the 64 block sums, each over the
  block's rows and lanes, regroup to the sum over every element.
-/
import proofs.«119492_j55929064129141_2_alg».proof.Proof.Gen.KernelIdeal.Frame
import proofs.«119492_j55929064129141_2_alg».proof.Proof.Spec
import proofs.«119492_j55929064129141_2_alg».proof.Proof.SumLemmas
import proofs.«119492_j55929064129141_2_alg».proof.Proof.KBlock
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Reg2

open Cert.KernelIdeal Cert.KernelIdeal.Gen

section Generic
variable {F : FTy → Type} [FloatOps F]

theorem hz : (![0, 0] : Fin 2 → Nat) = fun _ => 0 := funext fun a => by fin_cases a <;> rfl

/-- What one grid point's body leaves in the output block: a function of the three input blocks, the row of
    parameters, the row of counts and the block's old contents. -/
def body (x0 x1 x2 : Vec F S32x16384 .f32) (x3 x4 xo : Vec F S1x128 .f32) : Vec F S1x128 .f32 :=
  k2_pay1 x0 x1 (k2_pay3 (View.ld x3 (Rect.unit ![0, 1] ![1, 1] inb_S1x128_S1x1_0_1)))
    (k2_pay4 (View.ld x3 (Rect.unit ![0, 2] ![1, 1] inb_S1x128_S1x1_0_2)))
    (k2_pay7 x0 x1 x2 (View.ld x3 (Rect.unit ![0, 0] ![1, 1] inb_S1x128_S1x1_0_0)))
    (k2_pay8 x0 x1 (View.ld x3 (Rect.unit ![0, 0] ![1, 1] inb_S1x128_S1x1_0_0)))
    (k2_pay12 (k2_pay5 x4) (k2_pay8 x0 x1 (View.ld x3 (Rect.unit ![0, 0] ![1, 1] inb_S1x128_S1x1_0_0))) k2_pay9
      (k2_pay10 x4) k2_pay11)
    (k2_pay13 (k2_pay5 x4)) xo

/-- At a point other than the first the body leaves `body` of the old contents. -/
theorem out_B (c : Dev nD) (i : grid2.Coords)
    (a1 : Memref sig .tc .vmem S32x16384 .f32) (h1 : a1.IsWhole)
    (a2 : Memref sig .tc .vmem S32x16384 .f32) (h2 : a2.IsWhole)
    (a3 : Memref sig .tc .vmem S32x16384 .f32) (h3 : a3.IsWhole)
    (a4 : Memref sig .tc .vmem S1x128 .f32) (h4 : a4.IsWhole)
    (a5 : Memref sig .tc .vmem S1x128 .f32) (h5 : a5.IsWhole)
    (a6 : Memref sig .tc .vmem S1x128 .f32) (h6 : a6.IsWhole) (hc : ¬cond2_0 i)
    (x0 x1 x2 : Vec F S32x16384 .f32) (x3 x4 xo : Vec F S1x128 .f32) :
    out2_B_5 c i a1 h1 a2 h2 a3 h3 a4 h4 a5 h5 a6 h6 hc x0 x1 x2 x3 x4 xo = body x0 x1 x2 x3 x4 xo := by
  unfold out2_B_5
  rw [View.read_writes_eq_canon _ _ _ (cover2_B_5 c i a1 h1 a2 h2 a3 h3 a4 h4 a5 h5 a6 h6 hc x0 x1 x2 x3 x4 xo)]
  unfold kernelRun2_B
  dsimp only
  sl_unfold_words
  rw [View.canon_unit_zero hz]
  simp only [View.readAt_eq_ld, h1.read_unread, h2.read_unread, h3.read_unread, h4.read_unread, h5.read_unread,
    h6.read_unread, View.ld_unit_zero (S := S32x16384) hz, View.ld_unit_zero (S := S1x128) hz, shapeCast_self]
  rfl

/-- At the first point the body first stores the zero block, so it leaves `body` of the zero block. -/
theorem out_A (c : Dev nD) (i : grid2.Coords)
    (a1 : Memref sig .tc .vmem S32x16384 .f32) (h1 : a1.IsWhole)
    (a2 : Memref sig .tc .vmem S32x16384 .f32) (h2 : a2.IsWhole)
    (a3 : Memref sig .tc .vmem S32x16384 .f32) (h3 : a3.IsWhole)
    (a4 : Memref sig .tc .vmem S1x128 .f32) (h4 : a4.IsWhole)
    (a5 : Memref sig .tc .vmem S1x128 .f32) (h5 : a5.IsWhole)
    (a6 : Memref sig .tc .vmem S1x128 .f32) (h6 : a6.IsWhole) (hc : cond2_0 i)
    (x0 x1 x2 : Vec F S32x16384 .f32) (x3 x4 : Vec F S1x128 .f32) :
    out2_A_5 c i a1 h1 a2 h2 a3 h3 a4 h4 a5 h5 a6 h6 hc x0 x1 x2 x3 x4 = body x0 x1 x2 x3 x4 k2_pay2 := by
  unfold out2_A_5
  rw [View.read_writes_eq_canon _ _ _ (cover2_A_5 c i a1 h1 a2 h2 a3 h3 a4 h4 a5 h5 a6 h6 hc x0 x1 x2 x3 x4)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S32x16384) hz, View.ld_unit_zero (S := S1x128) hz, shapeCast_self]
  rfl

end Generic

section Math

/-- The chain of ten selects on "the bin word is 9", …, "the bin word is 0" over the ten table entries, ending in 0,
    is the table entry the word names (0 for a word outside 0 … 9). -/
theorem chain_eq_pick (cnt : Fin 10 → EReal) (v : BitVec 32) :
    Scalar.select (IntOp.cmpi .eq v 9#32) (cnt 9)
      (Scalar.select (IntOp.cmpi .eq v 8#32) (cnt 8)
      (Scalar.select (IntOp.cmpi .eq v 7#32) (cnt 7)
      (Scalar.select (IntOp.cmpi .eq v 6#32) (cnt 6)
      (Scalar.select (IntOp.cmpi .eq v 5#32) (cnt 5)
      (Scalar.select (IntOp.cmpi .eq v 4#32) (cnt 4)
      (Scalar.select (IntOp.cmpi .eq v 3#32) (cnt 3)
      (Scalar.select (IntOp.cmpi .eq v 2#32) (cnt 2)
      (Scalar.select (IntOp.cmpi .eq v 1#32) (cnt 1)
      (Scalar.select (IntOp.cmpi .eq v 0#32) (cnt 0) (0 : EReal)))))))))) = Cert.Spec.pick cnt v := by
  simp only [Cert.KernelIdeal.KBlock.select_cmpi_eq]
  unfold Cert.Spec.pick
  by_cases h : v.toNat < 10
  · rw [dif_pos h]
    obtain ⟨n, hn, rfl⟩ : ∃ n, n < 10 ∧ v = BitVec.ofNat 32 n := ⟨v.toNat, h, by simp⟩
    interval_cases n <;> rfl
  · rw [dif_neg h]
    have ne : ∀ k : ℕ, k < 10 → v ≠ BitVec.ofNat 32 k := fun k hk e => h (by
      rw [e, BitVec.toNat_ofNat]; exact lt_of_le_of_lt (Nat.mod_le _ _) hk)
    rw [if_neg (ne 9 (by decide)), if_neg (ne 8 (by decide)), if_neg (ne 7 (by decide)), if_neg (ne 6 (by decide)),
      if_neg (ne 5 (by decide)), if_neg (ne 4 (by decide)), if_neg (ne 3 (by decide)), if_neg (ne 2 (by decide)),
      if_neg (ne 1 (by decide)), if_neg (ne 0 (by decide))]

/-- An integer comparison of vectors at an index compares the elements. -/
theorem cmpi_apply {s : Shape} {w : Nat} (p : CmpIPredicate) (x y : IVec s w) (i : s.Idx) :
    cmpi p x y i = IntOp.cmpi p (x i) (y i) := rfl

/-- The ten counts a row of counts holds in its first ten lanes. -/
def cntOf (x4 : Vec Ideal S1x128 .f32) : Fin 10 → EReal :=
  fun b => x4 (ix2 (0 : Fin 1) (⟨b.val, by omega⟩ : Fin 128))

/-- The one element of the [1,1] slice at lane `b` of a row of counts is count `b`. -/
theorem cnt_read (x4 : Vec Ideal S1x128 .f32) (b : Fin 10) (off : Fin 2 → ℕ) (hoff : off = ![0, b.val])
    (h : S1x128.Slices off S1x1) (h' : ∀ a, (![0, 0] : Fin 2 → ℕ) a < S1x1.size a) :
    extractAt ![0, 0] (extractStridedSlice S1x1 off x4 h) h' = cntOf x4 b := by
  subst hoff
  show x4 _ = x4 _
  congr 1
  funext a
  apply Fin.ext
  match a with
  | ⟨0, _⟩ => rfl
  | ⟨1, _⟩ => show b.val + 0 = b.val; omega

/-- The one element of a [1,1] load at lane `k` of a row is the row's lane `k`. -/
theorem ld11 (X : Vec Ideal S1x128 .f32) (k : Fin 128) (off : Fin 2 → ℕ) (hoff : off = ![0, k.val])
    (inb : ∀ a, off a + (![1, 1] : Fin 2 → ℕ) a ≤ S1x128.size a) (h' : ∀ a, (![0, 0] : Fin 2 → ℕ) a < S1x1.size a) :
    extractAt ![0, 0] (View.ld X (Rect.unit off ![1, 1] inb)) h' = X (ix2 (0 : Fin 1) k) := by
  subst hoff
  show X _ = X _
  congr 1
  funext a
  apply Fin.ext
  match a with
  | ⟨0, _⟩ => rfl
  | ⟨1, _⟩ => show k.val + 1 * 0 = k.val; omega

/-- The validity-and-range bit the body computes at an element is the specification's. -/
theorem pay7_apply (x0 x1 x2 : Vec Ideal S32x16384 .f32) (L0 : Vec Ideal S1x1 .f32) (i : S32x16384.Idx) :
    k2_pay7 x0 x1 x2 L0 i = Cert.Spec.inr (extractAt ![0, 0] L0 inpos_S1x1_p0_0) (x0 i) (x1 i) (x2 i) := rfl

/-- The bin word the body computes at an element is the specification's. -/
theorem pay8_apply (x0 x1 : Vec Ideal S32x16384 .f32) (L0 : Vec Ideal S1x1 .f32) (i : S32x16384.Idx) :
    k2_pay8 x0 x1 L0 i = Cert.Spec.binOf (extractAt ![0, 0] L0 inpos_S1x1_p0_0) (x0 i) (x1 i) := rfl

/-- The body's ten-way select over the counts, at an element with bin word `bin i`, is the count that word names. -/
theorem pick_vec (x4 : Vec Ideal S1x128 .f32) (bin : IVec S32x16384 32) (i : S32x16384.Idx) :
    Scalar.select (IntOp.cmpi .eq (bin i) 9#32) (extractAt ![0, 0] (k2_pay13 (k2_pay5 x4)) inpos_S1x1_p0_0)
        (k2_pay12 (k2_pay5 x4) bin k2_pay9 (k2_pay10 x4) k2_pay11 i)
      = Cert.Spec.pick (cntOf x4) (bin i) := by
  have e0 := cnt_read x4 0 ![0, 0] rfl slices_S1x128_o0_0_S1x1 inpos_S1x1_p0_0
  have e1 := cnt_read x4 1 ![0, 1] rfl slices_S1x128_o0_1_S1x1 inpos_S1x1_p0_0
  have e2 := cnt_read x4 2 ![0, 2] rfl slices_S1x128_o0_2_S1x1 inpos_S1x1_p0_0
  have e3 := cnt_read x4 3 ![0, 3] rfl slices_S1x128_o0_3_S1x1 inpos_S1x1_p0_0
  have e4 := cnt_read x4 4 ![0, 4] rfl slices_S1x128_o0_4_S1x1 inpos_S1x1_p0_0
  have e5 := cnt_read x4 5 ![0, 5] rfl slices_S1x128_o0_5_S1x1 inpos_S1x1_p0_0
  have e6 := cnt_read x4 6 ![0, 6] rfl slices_S1x128_o0_6_S1x1 inpos_S1x1_p0_0
  have e7 := cnt_read x4 7 ![0, 7] rfl slices_S1x128_o0_7_S1x1 inpos_S1x1_p0_0
  have e8 := cnt_read x4 8 ![0, 8] rfl slices_S1x128_o0_8_S1x1 inpos_S1x1_p0_0
  have e9 := cnt_read x4 9 ![0, 9] rfl slices_S1x128_o0_9_S1x1 inpos_S1x1_p0_0
  unfold k2_pay12 k2_pay13 k2_pay10 k2_pay9 k2_pay11 k2_pay5
  simp only [shapeCast_self, select_apply, cmpi_apply, broadcast_apply]
  rw [e0, e1, e2, e3, e4, e5, e6, e7, e8, e9, Ideal.ofBits_def, Ideal.ofBits_zero_f32]
  exact chain_eq_pick _ _

/-- One block's share of the weighted sum: Σ over the block's 32 × 16384 elements of 2·p·t·weight, the ratio, the
    total and the number of non-empty bins read off the row of parameters, the ten counts off the row of counts. -/
def blockStat (x0 x1 x2 : Vec Ideal S32x16384 .f32) (x3 x4 : Vec Ideal S1x128 .f32) : EReal :=
  ∑ r : Fin 32, ∑ l : Fin 16384,
    Cert.Spec.w2 * x0 (ix2 r l) * x1 (ix2 r l)
      * Cert.Spec.weight (x3 (ix2 (0 : Fin 1) (0 : Fin 128))) (x3 (ix2 (0 : Fin 1) (1 : Fin 128)))
          (x3 (ix2 (0 : Fin 1) (2 : Fin 128))) (cntOf x4) (x0 (ix2 r l)) (x1 (ix2 r l)) (x2 (ix2 r l))

/-- Lane 0 of what the body leaves: the old lane 0 plus the block's share. -/
theorem body_lane0 (x0 x1 x2 : Vec Ideal S32x16384 .f32) (x3 x4 xo : Vec Ideal S1x128 .f32) :
    body x0 x1 x2 x3 x4 xo (ix2 (0 : Fin 1) (0 : Fin 128))
      = xo (ix2 (0 : Fin 1) (0 : Fin 128)) + blockStat x0 x1 x2 x3 x4 := by
  unfold body k2_pay1
  dsimp only
  rw [addf_apply, shapeCast_self]
  refine congrArg (xo (ix2 (0 : Fin 1) (0 : Fin 128)) + ·) ?_
  refine (Cert.KernelIdeal.KBlock.laneSel 0 (by decide) _ _ _ _ _ (0 : Fin 128)).trans ?_
  refine (if_pos rfl).trans ?_
  refine (Cert.KernelIdeal.KBlock.fullSum _ _ _ _ _ _ _ _).trans ?_
  unfold blockStat
  refine Finset.sum_congr rfl fun r _ => Finset.sum_congr rfl fun l _ => ?_
  simp only [mulf_apply, divf_apply, select_apply, maximumf_apply, broadcast_apply, cmpi_apply]
  rw [pick_vec x4 (k2_pay8 x0 x1 (View.ld x3 (Rect.unit ![0, 0] ![1, 1] inb_S1x128_S1x1_0_0))) (ix2 r l),
    pay7_apply, pay8_apply]
  unfold k2_pay3 k2_pay4
  rw [ld11 x3 0 ![0, 0] rfl, ld11 x3 1 ![0, 1] rfl, ld11 x3 2 ![0, 2] rfl]
  rfl

end Math

section AtIdeal

variable (V : (c : Dev nD) → (b : Ref sig .tc) → Buf (Elt Ideal) ((c : Thread nD τ).loc b)) (c : Dev nD)

/-- The share of the blocks of grid point `s` (0 past the grid, where it is never used). -/
def stat (s : ℕ) : EReal :=
  if h : s < cfg2.N then
    blockStat (iblk2 V c 0 ⟨s, h⟩) (iblk2 V c 1 ⟨s, h⟩) (iblk2 V c 2 ⟨s, h⟩) (iblk2 V c 3 ⟨s, h⟩) (iblk2 V c 4 ⟨s, h⟩)
  else 0

theorem stat_of_lt (s : ℕ) (h : s < cfg2.N) : stat V c s
    = blockStat (iblk2 V c 0 ⟨s, h⟩) (iblk2 V c 1 ⟨s, h⟩) (iblk2 V c 2 ⟨s, h⟩) (iblk2 V c 3 ⟨s, h⟩) (iblk2 V c 4 ⟨s, h⟩) :=
  dif_pos h

/-- Lane 0 of the output block after point `n` is the sum of the shares of points 0 … n: the first point starts from
    the zero block, every later one adds to what the point before left. -/
theorem outsAt_eq : ∀ (n : ℕ) (h : n < cfg2.N),
    outsAt2 V c n h (ix2 (0 : Fin 1) (0 : Fin 128)) = ∑ s ∈ Finset.range (n + 1), stat V c s
  | 0, h => by
    have e : outsAt2 V c 0 h = _ := (outsAt2_A V c ⟨0, h⟩ rfl).trans (out_A ..)
    rw [e, body_lane0, Finset.sum_range_one, stat_of_lt V c 0 h]
    show Ideal.ofBits .f32 0x00000000#32 + _ = _
    rw [Ideal.ofBits_zero_f32, zero_add]
  | n + 1, h => by
    have hN : cfg2.N = 64 := N_2
    have hB : ¬(⟨n + 1, h⟩ : Fin cfg2.N).val % 64 = 0 := by dsimp only; omega
    rw [outsAt2_B V c ⟨n + 1, h⟩ hB, out_B, body_lane0]
    show outsAt2 V c n _ _ + _ = _
    rw [outsAt_eq n, Finset.sum_range_succ _ (n + 1), stat_of_lt V c (n + 1) h]

/-- The last grid point. -/
abbrev tLast : Fin cfg2.N := ⟨63, by rw [show cfg2.N = 64 from N_2]; decide⟩

/-- The output block after the last point, as contents of the output array (its one block is the array). -/
abbrev result : Buf (Elt Ideal) ((c : Thread nD τ).loc main_v39) := outsAt2 V c 63 tLast.isLt

/-- The one write-back, at the last point, writes it: block (0, 0) of the [1,128] array is the array. -/
theorem flushed_eq (t : Fin cfg2.N) (hf : (cfg2.win 5).flush t = true) :
    (dat2 V c).flushed 5 t = ((cfg2.win 5).blk t).view.read (Elt Ideal) (result V c) := by
  have hN : cfg2.N = 64 := N_2
  have h3 : t.val = 63 := by have := (flush2_5 t).mp hf; have := t.isLt; omega
  obtain rfl : t = tLast := Fin.ext h3
  show (cfg2.win 5).cut (grid2.coords tLast) ((dat2 V c).after 5 tLast) = _
  rw [after2_5]
  have hz' : (fun a => win2_5.index tLast a * main_v39.ty.shape.size a) = fun _ => 0 :=
    funext fun a => by fin_cases a <;> decide +kernel
  exact (Memref.read_access_unit_zero (Elt Ideal) main_v39 hz' (fun a => by rw [congrFun hz' a]; simp) (result V c)).symm

/-- So the output array ends holding the block after the last point. -/
theorem final_o : (dat2 V c).arrAt 5 cfg2.N = result V c :=
  (dat2 V c).arrAt_eq_of_cover 5 (result V c) (flushed_eq V c) fun i =>
    ⟨tLast, (flush2_5 tLast).mpr rfl, by
      show i ∈ ((View.whole main_v39).slice (win2_5.rect tLast)).set
      rw [View.set_slice_whole, Rect.mem_set_unit]
      intro a
      have h0 : (i 0 : Nat) < 1 := (i 0).isLt
      have h1 : (i 1 : Nat) < 128 := (i 1).isLt
      match a with
      | ⟨0, _⟩ => show win2_5.index tLast 0 * win2_5.size 0 ≤ (i 0 : Nat) ∧ (i 0 : Nat) < win2_5.index tLast 0 * win2_5.size 0 + win2_5.xsize (grid2.coords tLast) 0
                  rw [show win2_5.index tLast 0 * win2_5.size 0 = 0 from by decide +kernel, show win2_5.xsize (grid2.coords tLast) 0 = 1 from by decide +kernel]; omega
      | ⟨1, _⟩ => show win2_5.index tLast 1 * win2_5.size 1 ≤ (i 1 : Nat) ∧ (i 1 : Nat) < win2_5.index tLast 1 * win2_5.size 1 + win2_5.xsize (grid2.coords tLast) 1
                  rw [show win2_5.index tLast 1 * win2_5.size 1 = 0 from by decide +kernel, show win2_5.xsize (grid2.coords tLast) 1 = 128 from by decide +kernel]; omega⟩

/-- A block of the first argument, read at an element: column block `t` of the array. -/
theorem iblk0_apply (t : Fin cfg2.N) (r : Fin 32) (l : Fin 16384) :
    iblk2 V c 0 t (ix2 r l) = V c main_arg0 (ix2 r (⟨t.val * 16384 + l.val, by
      have := t.isLt; have hN : cfg2.N = 64 := N_2; have := l.isLt; omega⟩ : Fin 1048576)) := by
  have hi : win2_0.index t 0 = 0 ∧ win2_0.index t 1 = t.val :=
    (by decide +kernel : ∀ t : Fin grid2.N, win2_0.index t 0 = 0 ∧ win2_0.index t 1 = t.val) t
  unfold iblk2
  rw [View.read_apply]
  show V c main_arg0 _ = V c main_arg0 _
  congr 1
  funext a
  apply Fin.ext
  match a with
  | ⟨0, _⟩ => show win2_0.index t 0 * 32 + 1 * r.val = r.val; rw [hi.1]; omega
  | ⟨1, _⟩ => show win2_0.index t 1 * 16384 + 1 * l.val = t.val * 16384 + l.val; rw [hi.2]; omega

/-- A block of the second argument, read at an element. -/
theorem iblk1_apply (t : Fin cfg2.N) (r : Fin 32) (l : Fin 16384) :
    iblk2 V c 1 t (ix2 r l) = V c main_arg1 (ix2 r (⟨t.val * 16384 + l.val, by
      have := t.isLt; have hN : cfg2.N = 64 := N_2; have := l.isLt; omega⟩ : Fin 1048576)) := by
  have hi : win2_1.index t 0 = 0 ∧ win2_1.index t 1 = t.val :=
    (by decide +kernel : ∀ t : Fin grid2.N, win2_1.index t 0 = 0 ∧ win2_1.index t 1 = t.val) t
  unfold iblk2
  rw [View.read_apply]
  show V c main_arg1 _ = V c main_arg1 _
  congr 1
  funext a
  apply Fin.ext
  match a with
  | ⟨0, _⟩ => show win2_1.index t 0 * 32 + 1 * r.val = r.val; rw [hi.1]; omega
  | ⟨1, _⟩ => show win2_1.index t 1 * 16384 + 1 * l.val = t.val * 16384 + l.val; rw [hi.2]; omega

/-- A block of the third argument, read at an element. -/
theorem iblk2_apply (t : Fin cfg2.N) (r : Fin 32) (l : Fin 16384) :
    iblk2 V c 2 t (ix2 r l) = V c main_arg2 (ix2 r (⟨t.val * 16384 + l.val, by
      have := t.isLt; have hN : cfg2.N = 64 := N_2; have := l.isLt; omega⟩ : Fin 1048576)) := by
  have hi : win2_2.index t 0 = 0 ∧ win2_2.index t 1 = t.val :=
    (by decide +kernel : ∀ t : Fin grid2.N, win2_2.index t 0 = 0 ∧ win2_2.index t 1 = t.val) t
  unfold iblk2
  rw [View.read_apply]
  show V c main_arg2 _ = V c main_arg2 _
  congr 1
  funext a
  apply Fin.ext
  match a with
  | ⟨0, _⟩ => show win2_2.index t 0 * 32 + 1 * r.val = r.val; rw [hi.1]; omega
  | ⟨1, _⟩ => show win2_2.index t 1 * 16384 + 1 * l.val = t.val * 16384 + l.val; rw [hi.2]; omega

/-- The row of parameters is the same whole array at every point. -/
theorem iblk3_apply (t : Fin cfg2.N) (k : Fin 128) :
    iblk2 V c 3 t (ix2 (0 : Fin 1) k) = V c main_v38 (ix2 (0 : Fin 1) k) := by
  have hi : win2_3.index t 0 = 0 ∧ win2_3.index t 1 = 0 :=
    (by decide +kernel : ∀ t : Fin grid2.N, win2_3.index t 0 = 0 ∧ win2_3.index t 1 = 0) t
  unfold iblk2
  rw [View.read_apply]
  show V c main_v38 _ = V c main_v38 _
  congr 1
  funext a
  apply Fin.ext
  match a with
  | ⟨0, _⟩ => show win2_3.index t 0 * 1 + 1 * 0 = 0; rw [hi.1]
  | ⟨1, _⟩ => show win2_3.index t 1 * 128 + 1 * k.val = k.val; rw [hi.2]; omega

/-- The row of counts is the same whole array at every point. -/
theorem iblk4_apply (t : Fin cfg2.N) (k : Fin 128) :
    iblk2 V c 4 t (ix2 (0 : Fin 1) k) = V c main_v18 (ix2 (0 : Fin 1) k) := by
  have hi : win2_4.index t 0 = 0 ∧ win2_4.index t 1 = 0 :=
    (by decide +kernel : ∀ t : Fin grid2.N, win2_4.index t 0 = 0 ∧ win2_4.index t 1 = 0) t
  unfold iblk2
  rw [View.read_apply]
  show V c main_v18 _ = V c main_v18 _
  congr 1
  funext a
  apply Fin.ext
  match a with
  | ⟨0, _⟩ => show win2_4.index t 0 * 1 + 1 * 0 = 0; rw [hi.1]
  | ⟨1, _⟩ => show win2_4.index t 1 * 128 + 1 * k.val = k.val; rw [hi.2]; omega

/-- Lane 0 of the output array after the region is the weighted sum Σ 2·p·t·weight over the whole arrays, the ratio,
    the total and the number of non-empty bins read off the row of parameters, the ten counts off the row of counts:
    the 64 column blocks' shares, each a sum over its rows and lanes, regroup to the sum over every element. -/
theorem lane0 :
    (dat2 V c).arrAt 5 cfg2.N (ix2 (0 : Fin 1) (0 : Fin 128))
      = Cert.Spec.wsum (V c main_arg0) (V c main_arg1) (V c main_arg2)
          (V c main_v38 (ix2 (0 : Fin 1) (0 : Fin 128))) (V c main_v38 (ix2 (0 : Fin 1) (1 : Fin 128)))
          (V c main_v38 (ix2 (0 : Fin 1) (2 : Fin 128)))
          (fun b : Fin 10 => V c main_v18 (ix2 (0 : Fin 1) (⟨b.val, by omega⟩ : Fin 128))) := by
  rw [final_o]
  show outsAt2 V c 63 _ _ = _
  rw [outsAt_eq]
  show ∑ s ∈ Finset.range 64, stat V c s = _
  unfold Cert.Spec.wsum
  rw [← Cert.Spec.total_blocks, ← Fin.sum_univ_eq_sum_range (stat V c) 64]
  refine Finset.sum_congr rfl fun t _ => ?_
  have ht : t.val < cfg2.N := lt_of_lt_of_eq t.isLt (show (64 : ℕ) = cfg2.N from N_2.symm)
  have hc : cntOf (iblk2 V c 4 ⟨t.val, ht⟩)
      = fun b : Fin 10 => V c main_v18 (ix2 (0 : Fin 1) (⟨b.val, by omega⟩ : Fin 128)) :=
    funext fun b => iblk4_apply V c ⟨t.val, ht⟩ ⟨b.val, by omega⟩
  rw [stat_of_lt V c t.val ht]
  unfold blockStat
  refine Finset.sum_congr rfl fun r _ => Finset.sum_congr rfl fun l _ => ?_
  rw [hc, iblk0_apply, iblk1_apply, iblk2_apply, iblk3_apply, iblk3_apply, iblk3_apply]

end AtIdeal

end Cert.KernelIdeal.Reg2

end
-- ==== Proof.KernelValue.lean ====
/-
  The idealized kernel program's result as a function of its three argument arrays: the fold of @main's segments,
  walked back from the result buffer. The last host operations give (1 − lane 0 of region 2's array / S) · 1 with
  S the sum the first host operations took of lanes 0 and 1 of region 0's array; region 2's lane 0 is the weighted sum
  under the parameters and counts the host operations before it wrote; those are the ratio and the total (from region
  0's lanes), the number of non-empty bins and the ten counts (region 1's lanes, under the same ratio). Every region
  finds the three argument arrays as launched. Together: the loss of Spec.lean.
-/
import proofs.«119492_j55929064129141_2_alg».proof.Proof.KernelRun
import proofs.«119492_j55929064129141_2_alg».proof.Proof.Glue
import proofs.«119492_j55929064129141_2_alg».proof.Proof.Reg0
import proofs.«119492_j55929064129141_2_alg».proof.Proof.Reg1
import proofs.«119492_j55929064129141_2_alg».proof.Proof.Reg2

noncomputable section

open Idealize.ShloMosaic Idealize.ShloMosaic.TcCoe Idealize.SL.Sem Idealize.ShloMosaic.ValueIdx

namespace Cert.KernelIdeal.KV

open Cert.KernelIdeal Cert.KernelIdeal.Gen Cert.KernelIdeal.Glue Cert.Spec

variable (m : (ℓ : Loc nD τ sig) → Buf (Elt Ideal) ℓ) (ρ : Dev nD → PrngReg) (c : Dev nD)

/-- The three argument arrays as launched. -/
abbrev P : SA.Idx → EReal := m ((c : Thread nD τ).loc main_arg0)
abbrev T : SA.Idx → EReal := m ((c : Thread nD τ).loc main_arg1)
abbrev LW : SA.Idx → EReal := m ((c : Thread nD τ).loc main_arg2)

/-! ## Every region finds the argument arrays as launched -/

theorem W1_arg0 : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_arg1 : W1 m ρ c (Proc.devRef .tc main_arg1) = m ((c : Thread nD τ).loc main_arg1) :=
  (W1_arr m ρ c 1).trans (((dat0 (V0 m ρ) c).arrAt_in 1 rfl _).trans (A_eq0 (V0 m ρ) c 1))
theorem W1_arg2 : W1 m ρ c (Proc.devRef .tc main_arg2) = m ((c : Thread nD τ).loc main_arg2) :=
  (W1_arr m ρ c 2).trans (((dat0 (V0 m ρ) c).arrAt_in 2 rfl _).trans (A_eq0 (V0 m ρ) c 2))

theorem V2_arg0 : V2 m ρ c main_arg0 = m ((c : Thread nD τ).loc main_arg0) := (h1_keep_arg0 (W1 m ρ c)).trans (W1_arg0 m ρ c)
theorem V2_arg1 : V2 m ρ c main_arg1 = m ((c : Thread nD τ).loc main_arg1) := (h1_keep_arg1 (W1 m ρ c)).trans (W1_arg1 m ρ c)
theorem V2_arg2 : V2 m ρ c main_arg2 = m ((c : Thread nD τ).loc main_arg2) := (h1_keep_arg2 (W1 m ρ c)).trans (W1_arg2 m ρ c)

theorem W3_arg0 : W3 m ρ c (Proc.devRef .tc main_arg0) = m ((c : Thread nD τ).loc main_arg0) :=
  (W3_arr m ρ c 0).trans ((((dat1 (V2 m ρ) c).arrAt_in 0 rfl _).trans (A_eq1 (V2 m ρ) c 0)).trans (V2_arg0 m ρ c))
theorem W3_arg1 : W3 m ρ c (Proc.devRef .tc main_arg1) = m ((c : Thread nD τ).loc main_arg1) :=
  (W3_arr m ρ c 1).trans ((((dat1 (V2 m ρ) c).arrAt_in 1 rfl _).trans (A_eq1 (V2 m ρ) c 1)).trans (V2_arg1 m ρ c))
theorem W3_arg2 : W3 m ρ c (Proc.devRef .tc main_arg2) = m ((c : Thread nD τ).loc main_arg2) :=
  (W3_arr m ρ c 2).trans ((((dat1 (V2 m ρ) c).arrAt_in 2 rfl _).trans (A_eq1 (V2 m ρ) c 2)).trans (V2_arg2 m ρ c))

theorem V4_arg0 : V4 m ρ c main_arg0 = m ((c : Thread nD τ).loc main_arg0) := (h2_keep_arg0 (W3 m ρ c)).trans (W3_arg0 m ρ c)
theorem V4_arg1 : V4 m ρ c main_arg1 = m ((c : Thread nD τ).loc main_arg1) := (h2_keep_arg1 (W3 m ρ c)).trans (W3_arg1 m ρ c)
theorem V4_arg2 : V4 m ρ c main_arg2 = m ((c : Thread nD τ).loc main_arg2) := (h2_keep_arg2 (W3 m ρ c)).trans (W3_arg2 m ρ c)

/-! ## Region 0's four statistics, and what the first host operations make of them -/

theorem a0_0 : a0 (W1 m ρ c) 0 = sumP (P m c) :=
  (congrFun (W1_arr m ρ c 3) (ix2 (0 : Fin 1) (0 : Fin 128))).trans (Cert.KernelIdeal.Reg0.lane0 (V0 m ρ) c)
theorem a0_1 : a0 (W1 m ρ c) 1 = sumT (T m c) :=
  (congrFun (W1_arr m ρ c 3) (ix2 (0 : Fin 1) (1 : Fin 128))).trans (Cert.KernelIdeal.Reg0.lane1 (V0 m ρ) c)
theorem a0_2 : a0 (W1 m ρ c) 2 = sumPT (P m c) (T m c) :=
  (congrFun (W1_arr m ρ c 3) (ix2 (0 : Fin 1) (2 : Fin 128))).trans (Cert.KernelIdeal.Reg0.lane2 (V0 m ρ) c)
theorem a0_3 : a0 (W1 m ρ c) 3 = sumV (LW m c) :=
  (congrFun (W1_arr m ρ c 3) (ix2 (0 : Fin 1) (3 : Fin 128))).trans (Cert.KernelIdeal.Reg0.lane3 (V0 m ρ) c)

/-- S, as the first host operations leave it. -/
theorem W2_v9 : W2 m ρ c (Proc.devRef .tc main_v9) = fun _ => denomS (P m c) (T m c) := by
  refine (h1_v9 (W1 m ρ c)).trans ?_
  rw [a0_0, a0_1]; rfl
/-- The ratio 2·I / S. -/
theorem W2_v11 : W2 m ρ c (Proc.devRef .tc main_v11) = fun _ => ratio (P m c) (T m c) := by
  refine (h1_v11 (W1 m ρ c)).trans ?_
  rw [a0_0, a0_1, a0_2]; rfl
/-- The total. -/
theorem W2_v12 : W2 m ρ c (Proc.devRef .tc main_v12) = fun _ => tot (LW m c) := by
  refine (h1_v12 (W1 m ρ c)).trans ?_
  rw [a0_3]; rfl
/-- Region 1's parameter: the ratio. -/
theorem V2_v17 : (V2 m ρ c main_v17 (ix2 (0 : Fin 1) (0 : Fin 128)) : EReal) = ratio (P m c) (T m c) := by
  refine (h1_v17 (W1 m ρ c)).trans ?_
  rw [a0_0, a0_1, a0_2]; rfl

/-! ## Region 1's ten counts -/

theorem a1_b (b : Fin 10) : a1 (W3 m ρ c) (⟨b.val, by omega⟩ : Fin 128) = counts (P m c) (T m c) (LW m c) b := by
  refine (congrFun (W3_arr m ρ c 4) (ix2 (0 : Fin 1) (⟨b.val, by omega⟩ : Fin 128))).trans ?_
  refine (Cert.KernelIdeal.Reg1.lane (V2 m ρ) c b).trans ?_
  rw [V2_arg0, V2_arg1, V2_arg2, V2_v17]; rfl

/-- A buffer no array of region 1 is, before and after it. -/
theorem W3_v9 : W3 m ρ c (Proc.devRef .tc main_v9) = fun _ => denomS (P m c) (T m c) :=
  (W3_of_ne m ρ c main_v9 (by decide)).trans (W2_v9 m ρ c)
theorem W3_v11 : W3 m ρ c (Proc.devRef .tc main_v11) = fun _ => ratio (P m c) (T m c) :=
  (W3_of_ne m ρ c main_v11 (by decide)).trans (W2_v11 m ρ c)
theorem W3_v12 : W3 m ρ c (Proc.devRef .tc main_v12) = fun _ => tot (LW m c) :=
  (W3_of_ne m ρ c main_v12 (by decide)).trans (W2_v12 m ρ c)

/-! ## Region 2's parameters and counts -/

theorem V4_v38_0 : (V4 m ρ c main_v38 (ix2 (0 : Fin 1) (0 : Fin 128)) : EReal) = ratio (P m c) (T m c) :=
  (h2_v38_0 (W3 m ρ c)).trans (congrFun (W3_v11 m ρ c) ix0)
theorem V4_v38_1 : (V4 m ρ c main_v38 (ix2 (0 : Fin 1) (1 : Fin 128)) : EReal) = tot (LW m c) :=
  (h2_v38_1 (W3 m ρ c)).trans (congrFun (W3_v12 m ρ c) ix0)
theorem V4_v38_2 : (V4 m ρ c main_v38 (ix2 (0 : Fin 1) (2 : Fin 128)) : EReal) = nn (P m c) (T m c) (LW m c) := by
  refine (h2_v38_2 (W3 m ρ c)).trans ?_
  exact congrArg (fun cnt : Fin 10 → EReal => max (nonempty cnt) w1) (funext (a1_b m ρ c))
theorem V4_v18 (b : Fin 10) :
    (V4 m ρ c main_v18 (ix2 (0 : Fin 1) (⟨b.val, by omega⟩ : Fin 128)) : EReal) = counts (P m c) (T m c) (LW m c) b :=
  (congrFun (h2_keep_v18 (W3 m ρ c)) _).trans (a1_b m ρ c b)

/-! ## The result -/

theorem a2_0 : a2 (W5 m ρ c) 0
    = wsum (P m c) (T m c) (LW m c) (ratio (P m c) (T m c)) (tot (LW m c)) (nn (P m c) (T m c) (LW m c)) (counts (P m c) (T m c) (LW m c)) := by
  refine (congrFun (W5_arr m ρ c 5) (ix2 (0 : Fin 1) (0 : Fin 128))).trans ?_
  refine (Cert.KernelIdeal.Reg2.lane0 (V4 m ρ) c).trans ?_
  rw [V4_arg0, V4_arg1, V4_arg2, V4_v38_0, V4_v38_1, V4_v38_2]
  exact congrArg (wsum (P m c) (T m c) (LW m c) (ratio (P m c) (T m c)) (tot (LW m c)) (nn (P m c) (T m c) (LW m c)))
    (funext (V4_v18 m ρ c))

theorem W5_v9 : W5 m ρ c (Proc.devRef .tc main_v9) = fun _ => denomS (P m c) (T m c) :=
  (W5_of_ne m ρ c main_v9 (by decide)).trans ((h2_keep_v9 (W3 m ρ c)).trans (W3_v9 m ρ c))

/-- The result buffer after the last host operations: the loss. -/
theorem result : W6 m ρ c (Proc.devRef .tc main_v44) = fun _ => loss (P m c) (T m c) (LW m c) := by
  refine (h3_v44 (W5 m ρ c)).trans ?_
  rw [a2_0, show s9 (W5 m ρ c) = denomS (P m c) (T m c) from congrFun (W5_v9 m ρ c) ix0]
  rfl

end Cert.KernelIdeal.KV

end
-- ==== Proof.RefOps.lean ====
/-
  The reference's operations that are not pointwise, read at one index over the extended reals: the sum of a
  flat array, the flattening of the [32, 1048576] array, the accumulation into ten bins, the lookup in a
  ten-entry table, the count of the set bits among ten, and the normalisation of a bin word.
-/
import proofs.«119492_j55929064129141_2_alg».proof.Proof.Spec
import proofs.«119492_j55929064129141_2_alg».proof.Proof.SumLemmas
import Idealize.ShloMosaic.PureOps.Ideal.Laws
import Idealize.ShloMosaic.PureOps.Reduce
import Idealize.ShloMosaic.Lib.ValueIdx
import Idealize.ShloMosaic.Lib.Pipeline.Value
import Mathlib.Data.BitVec

noncomputable section

namespace Cert.RefOps

open Idealize.ShloMosaic Idealize.ShloMosaic.ValueIdx

/-- The flat array of 33554432 elements. -/
abbrev SF : Shape := ⟨1, ![33554432]⟩
/-- The flat array of one-component index vectors. -/
abbrev SF1 : Shape := ⟨2, ![33554432, 1]⟩
/-- The ten bins. -/
abbrev S10 : Shape := ⟨1, ![10]⟩
/-- A scalar. -/
abbrev S_ : Shape := ⟨0, ![]⟩

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The sum of a flat array from an initial scalar: the scalar plus the sum over the 33554432 positions. -/
theorem reduceAdd_flat (x : FVec Ideal SF .f32) (init : S_.Idx → EReal) (h : SF.ReducesTo [0] S_) (hu : 0 < S_.numel) :
    Host.reduceAdd (F := Ideal) x init h hu = fun _ => init ix0 + ∑ k : Fin 33554432, x (ix1 k) := by
  funext j
  show Ideal.hostReduceAdd h x (init (Shape.Idx.first hu)) j = _
  rw [Ideal.hostReduceAdd_total h (fun b => b.elim0) x _ j, eq_ix0 (Shape.Idx.first hu), sum_idx1]

/-- The flattened array at position k is the array at row k / 1048576, column k % 1048576. -/
theorem reshape_flat {α : Type} (a : Cert.Spec.SA.Idx → α) (h : Cert.Spec.SA.ShapeCasts SF) (k : Fin 33554432) :
    shapeCast SF a h (ix1 k)
      = a (ix2 (⟨k.val / 1048576, by omega⟩ : Fin 32) (⟨k.val % 1048576, Nat.mod_lt _ (by decide)⟩ : Fin 1048576)) := by
  refine shapeCast_apply a h (ix1 k) _ ?_
  rw [Shape.rowMajor_val_two, Shape.rowMajor_val_one]
  show k.val / 1048576 * 1048576 + k.val % 1048576 = k.val
  omega

/-- The sum of a flat array whose element at position k is f at row k / 1048576, column k % 1048576: the initial
    scalar plus the sum of f over the whole array. -/
theorem reduceAdd_total (f : Cert.Spec.SA.Idx → EReal) (x : FVec Ideal SF .f32) (init : S_.Idx → EReal)
    (h : SF.ReducesTo [0] S_) (hu : 0 < S_.numel)
    (hx : ∀ k : Fin 33554432, x (ix1 k)
      = f (ix2 (⟨k.val / 1048576, by omega⟩ : Fin 32) (⟨k.val % 1048576, Nat.mod_lt _ (by decide)⟩ : Fin 1048576))) :
    Host.reduceAdd (F := Ideal) x init h hu = fun _ => init ix0 + Cert.Spec.total f := by
  rw [reduceAdd_flat, ← Cert.Spec.total_flat f]
  exact funext fun _ => congrArg (init ix0 + ·) (Finset.sum_congr rfl fun k _ => hx k)

/-- A word below ten read as a signed integer is itself. -/
theorem toInt_of_lt_ten (v : BitVec 32) (hv : v.toNat < 10) : v.toInt = (v.toNat : Int) :=
  BitVec.toInt_eq_toNat_of_lt (by omega)

/-- With one-component index vectors into ten bins, the update at position k lands in the bin its index word names. -/
theorem resultIdx_bins (wf : ScatterDims.WF S10 SF1 SF [] [0] [0] 1) (idx : IVec SF1 32) (k : Fin 33554432)
    (hk : (idx (ix2 k 0)).toNat < 10) :
    (⟨[], [0], [0], 1, wf⟩ : ScatterDims S10 SF1 SF).resultIdx? (ix1 k) idx
      = some (ix1 (⟨(idx (ix2 k 0)).toNat, hk⟩ : Fin 10)) := by
  have hstart : ∀ a, (⟨[], [0], [0], 1, wf⟩ : ScatterDims S10 SF1 SF).start (ix1 k) idx a = (idx (ix2 k 0)).toInt := by
    intro a
    obtain rfl : a = 0 := Subsingleton.elim _ _
    unfold ScatterDims.start
    rw [dif_pos (List.mem_singleton.mpr rfl)]
    refine congrArg (fun i => (idx i).toInt) (funext fun b => Fin.ext ?_)
    match b with
    | ⟨0, _⟩ => rfl
    | ⟨1, _⟩ => rfl
  have hwin : ∀ a, (⟨[], [0], [0], 1, wf⟩ : ScatterDims S10 SF1 SF).window (ix1 k) a = 0 := by
    intro a
    obtain rfl : a = 0 := Subsingleton.elim _ _
    unfold ScatterDims.window
    rw [dif_neg (show (0 : Fin 1) ∉ Shape.kept S10 [0] by decide)]
  have hint := toInt_of_lt_ten _ hk
  unfold ScatterDims.resultIdx?
  rw [dif_pos (fun a => by
    obtain rfl : a = 0 := Subsingleton.elim _ _
    rw [hstart, hwin, hint]
    show _ ∧ _ < ((10 : Nat) : Int)
    omega)]
  refine congrArg some (funext fun a => Fin.ext ?_)
  obtain rfl : a = 0 := Subsingleton.elim _ _
  show ((⟨[], [0], [0], 1, wf⟩ : ScatterDims S10 SF1 SF).start (ix1 k) idx 0
    + ((⟨[], [0], [0], 1, wf⟩ : ScatterDims S10 SF1 SF).window (ix1 k) 0 : Int)).toNat = (idx (ix2 k 0)).toNat
  rw [hstart, hwin, hint]
  omega

/-- Accumulation into ten bins: bin b receives its old content plus the updates of the positions whose index word
    is b, when every index word is one of 0 … 9. -/
theorem scatterAdd_bins (d : ScatterDims S10 SF1 SF) (hd₁ : d.updateWindowDims = []) (hd₂ : d.insertedWindowDims = [0])
    (hd₃ : d.scatterDimsToOperandDims = [0]) (hd₄ : d.indexVectorDim = 1)
    (x : FVec Ideal S10 .f32) (idx : IVec SF1 32) (upd : FVec Ideal SF .f32)
    (hidx : ∀ k : Fin 33554432, (idx (ix2 k 0)).toNat < 10) (b : Fin 10) :
    Host.scatterAdd (F := Ideal) d x idx upd (ix1 b)
      = x (ix1 b) + ∑ k : Fin 33554432, if idx (ix2 k 0) = BitVec.ofNat 32 b.val then upd (ix1 k) else 0 := by
  obtain ⟨uw, iw, sd, iv, wf⟩ := d
  simp only at hd₁ hd₂ hd₃ hd₄
  subst hd₁ hd₂ hd₃ hd₄
  show x (ix1 b) + ∑ j ∈ Finset.univ.filter
      (fun j => (⟨[], [0], [0], 1, wf⟩ : ScatterDims S10 SF1 SF).resultIdx? j idx = some (ix1 b)), upd j = _
  refine congrArg (x (ix1 b) + ·) ?_
  rw [Finset.sum_filter, sum_idx1]
  refine Finset.sum_congr rfl fun k _ => ?_
  rw [resultIdx_bins wf idx k (hidx k)]
  refine if_congr ?_ rfl rfl
  rw [Option.some_inj]
  constructor
  · intro e
    have e0 : (idx (ix2 k 0)).toNat = b.val := congrArg Fin.val (congrFun e 0)
    rw [← e0, BitVec.ofNat_toNat, BitVec.setWidth_eq]
  · intro e
    refine congrArg ix1 (Fin.ext ?_)
    show (idx (ix2 k 0)).toNat = b.val
    rw [e, BitVec.toNat_ofNat]
    exact Nat.mod_eq_of_lt (by have := b.isLt; omega)

/-- Lookup in a ten-entry table: position k reads the entry its index word names, when that word is one of 0 … 9. -/
theorem gather_bins {α : Type} (d : GatherDims S10 SF1 SF) (hd₁ : d.offsetDims = []) (hd₂ : d.collapsedSliceDims = [0])
    (hd₃ : d.operandBatchingDims = []) (hd₄ : d.startIndicesBatchingDims = []) (hd₅ : d.startIndexMap = [0])
    (hd₆ : d.indexVectorDim = 1) (hd₇ : d.sliceSizes = ![1])
    (x : S10.Idx → α) (idx : IVec SF1 32) (k : Fin 33554432) (hk : (idx (ix2 k 0)).toNat < 10) :
    Host.gather d x idx (ix1 k) = x (ix1 (⟨(idx (ix2 k 0)).toNat, hk⟩ : Fin 10)) := by
  obtain ⟨od, cd, ob, sb, sm, iv, ss, wf⟩ := d
  simp only at hd₁ hd₂ hd₃ hd₄ hd₅ hd₆ hd₇
  subst hd₁ hd₂ hd₃ hd₄ hd₅ hd₆ hd₇
  unfold Host.gather
  refine congrArg x (funext fun a => Fin.ext ?_)
  obtain rfl : a = 0 := Subsingleton.elim _ _
  show (⟨[], [0], [], [], [0], 1, ![1], wf⟩ : GatherDims S10 SF1 SF).start (ix1 k) idx 0
    + (⟨[], [0], [], [], [0], 1, ![1], wf⟩ : GatherDims S10 SF1 SF).batchCoord (ix1 k) 0
    + (⟨[], [0], [], [], [0], 1, ![1], wf⟩ : GatherDims S10 SF1 SF).offCoord (ix1 k) 0 = (idx (ix2 k 0)).toNat
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (⟨[], [0], [], [], [0], 1, ![1], wf⟩ : GatherDims S10 SF1 SF).startIndexMap
    from List.mem_singleton.mpr rfl)]
  have hsi : (⟨[], [0], [], [], [0], 1, ![1], wf⟩ : GatherDims S10 SF1 SF).siIdx (ix1 k)
      ⟨List.idxOf (0 : Fin 1) (⟨[], [0], [], [], [0], 1, ![1], wf⟩ : GatherDims S10 SF1 SF).startIndexMap,
        List.idxOf_lt_length_iff.2 (List.mem_singleton.mpr rfl)⟩ = ix2 k 0 := by
    funext b; refine Fin.ext ?_
    match b with
    | ⟨0, _⟩ => rfl
    | ⟨1, _⟩ => rfl
  rw [hsi]
  show min (idx (ix2 k 0)).toInt.toNat (10 - 1) = (idx (ix2 k 0)).toNat
  rw [toInt_of_lt_ten _ hk]
  omega

/-- A fold of 32-bit addition over a set of positions is the initial word plus the sum. -/
theorem fold_addi_eq_sum {ι : Type*} (S : Finset ι) (init : BitVec 32) (g : ι → BitVec 32) :
    S.fold IntOp.addi init g = init + ∑ i ∈ S, g i := by
  induction S using Finset.cons_induction with
  | empty => simp
  | cons a S ha ih =>
    rw [Finset.fold_cons, Finset.sum_cons, ih]
    show g a + (init + _) = _
    rw [add_left_comm]

/-- A sum of 32-bit words given by natural numbers is the word of the sum. -/
theorem sum_ofNat {ι : Type*} (S : Finset ι) (g : ι → ℕ) :
    ∑ i ∈ S, BitVec.ofNat 32 (g i) = BitVec.ofNat 32 (∑ i ∈ S, g i) := by
  induction S using Finset.cons_induction with
  | empty => simp
  | cons a S ha ih => rw [Finset.sum_cons, Finset.sum_cons, ih, BitVec.ofNat_add]

/-- A sum of natural numbers read in the extended reals is the sum of the readings. -/
theorem coe_nat_sum {ι : Type*} (S : Finset ι) (g : ι → ℕ) :
    (((∑ i ∈ S, g i : ℕ) : ℝ) : EReal) = ∑ i ∈ S, ((g i : ℝ) : EReal) := by
  induction S using Finset.cons_induction with
  | empty => simp
  | cons a S ha ih => rw [Finset.sum_cons, Finset.sum_cons, ← ih, Nat.cast_add, EReal.coe_add]

/-- The number of set bits among ten one-bit words, counted in 32-bit integers and converted: the sum of the bits. -/
theorem count_bits (z : IVec S10 1) (h1 : 1 < 32) (h : S10.ReducesTo [0] S_) (hu : 0 < S_.numel) :
    (sitofp (F := Ideal) .f32 (Host.reduce IntOp.addi (extui 32 z h1) (constantI S_ 32 0#32) h hu) : FVec Ideal S_ .f32)
      = fun _ => ∑ b : Fin 10, Cert.Spec.b2f (z (ix1 b)) := by
  funext j
  have hfold : Host.reduce IntOp.addi (extui 32 z h1) (constantI S_ 32 0#32) h hu j
      = BitVec.ofNat 32 (∑ b : Fin 10, (z (ix1 b)).toNat) := by
    rw [Host.reduce_eq_fold, Finset.filter_true_of_mem (fun i _ => funext fun b => b.elim0), fold_addi_eq_sum]
    show (0#32 : BitVec 32) + ∑ i : S10.Idx, (z i).setWidth 32 = _
    rw [sum_idx1, ← sum_ofNat, BitVec.zero_add]
    exact Finset.sum_congr rfl fun b _ => (BitVec.ofNat_toNat 32 (z (ix1 b))).symm
  have hle : ∑ b : Fin 10, (z (ix1 b)).toNat ≤ 10 := by
    calc ∑ b : Fin 10, (z (ix1 b)).toNat ≤ ∑ _b : Fin 10, 1 :=
          Finset.sum_le_sum fun b _ => by have := (z (ix1 b)).isLt; omega
      _ = 10 := by simp
  have hn : (BitVec.ofNat 32 (∑ b : Fin 10, (z (ix1 b)).toNat)).toNat = ∑ b : Fin 10, (z (ix1 b)).toNat := by
    rw [BitVec.toNat_ofNat]
    exact Nat.mod_eq_of_lt (by omega)
  have hti : (BitVec.ofNat 32 (∑ b : Fin 10, (z (ix1 b)).toNat)).toInt
      = ((∑ b : Fin 10, (z (ix1 b)).toNat : ℕ) : Int) := by
    rw [BitVec.toInt_eq_toNat_of_lt (by rw [hn]; omega), hn]
  show ((((Host.reduce IntOp.addi (extui 32 z h1) (constantI S_ 32 0#32) h hu j).toInt : ℝ)) : EReal) = _
  rw [hfold, hti, Int.cast_natCast, coe_nat_sum]
  rfl

/-- A word that is one of 0 … 9 is not negative, so the wrap-around of negative indices leaves it alone. -/
theorem norm_index (v : BitVec 32) (hv : v.toNat < 10) :
    Scalar.select (IntOp.cmpi .slt v 0#32) (IntOp.addi v 10#32) v = v := by
  have hi : v.toInt = (v.toNat : Int) := by
    rw [BitVec.toInt_eq_toNat_of_lt (by omega)]
  have hs : v.slt 0#32 = false := by
    simp only [BitVec.slt, hi]
    simp
  show Scalar.select (BitVec.ofBool (v.slt 0#32)) _ _ = _
  rw [hs]
  exact select_zero _ _

end Cert.RefOps

end
-- ==== Proof.RefSide.lean ====
/-
  The idealized reference program's run, with its one result named: every weakly fair execution ends with the result
  buffer holding the loss of the three argument arrays (Spec.lean) and the arguments unchanged.

  The program flattens the three [32, 1048576] arrays to 33554432 positions, position k holding the element at
  row k / 1048576, column k % 1048576, and computes the loss by 96 operations on the flat arrays. Each operation's
  value is read here at a flat position k (or, for a scalar or the ten-entry table, whole) as the quantity of Spec.lean
  it computes: the sums over positions are sums over the array, the scatter-add into ten zeros is the table of bin
  counts, the gather from it is the count of the element's own bin, and the integer sum of the ten positivity bits is
  the number of non-empty bins. The last operation's value is then the loss.
-/
import proofs.«119492_j55929064129141_2_alg».proof.ReferenceIdeal
import proofs.«119492_j55929064129141_2_alg».proof.Proof.Gen.ReferenceIdeal
import proofs.«119492_j55929064129141_2_alg».proof.Proof.Spec
import proofs.«119492_j55929064129141_2_alg».proof.Proof.SumLemmas
import proofs.«119492_j55929064129141_2_alg».proof.Proof.RefOps
import proofs.«119492_j55929064129141_2_alg».proof.Proof.RefRun
import proofs.«119492_j55929064129141_2_alg».proof.Proof.RefRead
import Idealize.ShloMosaic.Lib.StableHlo.Run

noncomputable section

open Idealize.ShloMosaic Idealize.ShloMosaic.TcCoe Idealize.SL.Sem

namespace Cert.RefSide

open Cert.ReferenceIdeal Cert.ReferenceIdeal.Gen Cert.ReferenceIdeal.ReadP Cert.Spec Idealize.ShloMosaic.ValueIdx

/-! ## Positions -/

/-- The row and column of the flat position k. -/
abbrev pos (k : Fin 33554432) : SA.Idx :=
  ix2 (⟨k.val / 1048576, by omega⟩ : Fin 32) (⟨k.val % 1048576, Nat.mod_lt _ (by decide)⟩ : Fin 1048576)

theorem idx0_pos (k : Fin 33554432) : idx_main_v0 (ix1 k) = pos k := by
  funext a; match a with | ⟨0, _⟩ => rfl | ⟨1, _⟩ => rfl
theorem idx1_pos (k : Fin 33554432) : idx_main_v1 (ix1 k) = pos k := by
  funext a; match a with | ⟨0, _⟩ => rfl | ⟨1, _⟩ => rfl
theorem idx2_pos (k : Fin 33554432) : idx_main_v2 (ix1 k) = pos k := by
  funext a; match a with | ⟨0, _⟩ => rfl | ⟨1, _⟩ => rfl
/-- The flat position behind the one-component index vector of position k. -/
theorem idx34_pos (k : Fin 33554432) : idx_main_v34 (ix2 k (0 : Fin 1)) = ix1 k := by
  funext a; match a with | ⟨0, _⟩ => rfl
theorem idx46_pos (k : Fin 33554432) : idx_main_v46 (ix2 k (0 : Fin 1)) = ix1 k := by
  funext a; match a with | ⟨0, _⟩ => rfl

/-- A sum over the flat positions from the zero word, of an array that reads f at each position's row and column, is
    the sum of f over the whole array. -/
theorem sum_stage (f : SA.Idx → EReal) (x : FVec Ideal S33554432 .f32) (hx : ∀ k : Fin 33554432, x (ix1 k) = f (pos k)) :
    Host.reduceAdd (F := Ideal) x (constant S_ .f32 0x00000000#32) reducesTo_S33554432_S_d0 h_S_ = fun _ => total f := by
  rw [Cert.RefOps.reduceAdd_total f x _ _ _ hx]
  funext _
  rw [constant_apply, Ideal.ofBits_zero_f32, zero_add]

/-- The conversion to a signed integer word at the extended reals. -/
theorem fptosi_ideal {φ : FTy} (w : Nat) (x : Ideal φ) : FloatOps.fptosi (F := Ideal) w x = Ideal.fptosi w x := rfl

/-- Two positions below a bound with equal values are equal. -/
theorem fin_mk_congr {n a b : Nat} (h : a = b) (ha : a < n) (hb : b < n) : (⟨a, ha⟩ : Fin n) = ⟨b, hb⟩ := by
  subst h; rfl

section Stages

variable (p t lw : SA.Idx → EReal)

/-! ## The flattened arguments, the three sums and the ratio -/

theorem v0_at (k : Fin 33554432) : val_main_v0 (F := Ideal) p (ix1 k) = p (pos k) := by
  rw [val_main_v0_apply, idx0_pos]
theorem v1_at (k : Fin 33554432) : val_main_v1 (F := Ideal) t (ix1 k) = t (pos k) := by
  rw [val_main_v1_apply, idx1_pos]
theorem v2_at (k : Fin 33554432) : val_main_v2 (F := Ideal) lw (ix1 k) = lw (pos k) := by
  rw [val_main_v2_apply, idx2_pos]

theorem v3_at (k : Fin 33554432) : val_main_v3 (F := Ideal) p t (ix1 k) = p (pos k) * t (pos k) := by
  rw [val_main_v3_apply, v0_at, v1_at] <;> rfl

theorem v4_eq : val_main_v4 (F := Ideal) p t = fun _ => sumPT p t := by
  unfold val_main_v4 val_main_cst
  exact sum_stage (fun i => p i * t i) _ (v3_at p t)
theorem v5_eq : val_main_v5 (F := Ideal) p = fun _ => sumP p := by
  unfold val_main_v5 val_main_cst_0
  exact sum_stage p _ (v0_at p)
theorem v6_eq : val_main_v6 (F := Ideal) t = fun _ => sumT t := by
  unfold val_main_v6 val_main_cst_1
  exact sum_stage t _ (v1_at t)

theorem v7_eq : val_main_v7 (F := Ideal) p t = fun _ => denomS p t := by
  funext i; rw [val_main_v7_apply, v5_eq, v6_eq] <;> rfl
theorem v9_eq : val_main_v9 (F := Ideal) p t = fun _ => ratio p t := by
  funext i; rw [val_main_v9_apply, val_main_v8_apply, v4_eq, v7_eq] <;> rfl
theorem v10_at (i : S33554432.Idx) : val_main_v10 (F := Ideal) p t i = ratio p t := by
  rw [val_main_v10_apply, v9_eq]

/-! ## The proxy, the validity bit, the total, the range bit and the bin -/

theorem v13_at (k : Fin 33554432) :
    val_main_v13 (F := Ideal) p t (ix1 k) = gOf (ratio p t) (p (pos k)) (t (pos k)) := by
  rw [val_main_v13_apply, val_main_v12_apply, val_main_v11_apply, v10_at, v0_at, v1_at] <;> rfl

theorem v14_at (i : S33554432.Idx) : val_main_v14 (F := Ideal) i = w0 := by
  rw [val_main_v14_apply] <;> rfl
theorem v15_at (k : Fin 33554432) : val_main_v15 (F := Ideal) lw (ix1 k) = valid (lw (pos k)) := by
  rw [val_main_v15_apply, v2_at, v14_at] <;> rfl
theorem v16_at (k : Fin 33554432) : val_main_v16 (F := Ideal) lw (ix1 k) = b2f (valid (lw (pos k))) := by
  rw [val_main_v16_apply, v15_at] <;> rfl
theorem v17_eq : val_main_v17 (F := Ideal) lw = fun _ => sumV lw := by
  unfold val_main_v17 val_main_cst_4
  exact sum_stage (fun i => b2f (valid (lw i))) _ (v16_at lw)
theorem v18_eq : val_main_v18 (F := Ideal) lw = fun _ => tot lw := by
  funext i; rw [val_main_v18_apply, v17_eq] <;> rfl

theorem v19_at (i : S33554432.Idx) : val_main_v19 (F := Ideal) i = wTop := by
  rw [val_main_v19_apply] <;> rfl
theorem v20_at (k : Fin 33554432) :
    val_main_v20 (F := Ideal) p t (ix1 k) = Ideal.cmp .olt (gOf (ratio p t) (p (pos k)) (t (pos k))) wTop := by
  rw [val_main_v20_apply, v13_at, v19_at] <;> rfl
theorem v21_at (k : Fin 33554432) :
    val_main_v21 (F := Ideal) p t lw (ix1 k) = inr (ratio p t) (p (pos k)) (t (pos k)) (lw (pos k)) := by
  rw [val_main_v21_apply, v15_at, v20_at] <;> rfl

theorem v22_at (i : S33554432.Idx) : val_main_v22 (F := Ideal) i = w10 := by
  rw [val_main_v22_apply] <;> rfl
theorem v25_at (k : Fin 33554432) :
    val_main_v25 (F := Ideal) p t (ix1 k)
      = Ideal.fptosi 32 (Ideal.liftRound Int.floor (gOf (ratio p t) (p (pos k)) (t (pos k)) * w10)) := by
  rw [val_main_v25_apply, val_main_v24_apply, val_main_v23_apply, v13_at, v22_at, fptosi_ideal, Ideal.hostUnary_floor_def,
    Ideal.mulf_def]
theorem call0_v1_at (i : S33554432.Idx) : val_main_call0_v1 (F := Ideal) i = 0#32 := by
  rw [val_main_call0_v1_apply] <;> rfl
theorem call0_v4_at (i : S33554432.Idx) : val_main_call0_v4 (F := Ideal) i = 9#32 := by
  rw [val_main_call0_v4_apply] <;> rfl
/-- The clamped word is the element's bin. -/
theorem v26_at (k : Fin 33554432) :
    val_main_v26 (F := Ideal) p t (ix1 k) = binOf (ratio p t) (p (pos k)) (t (pos k)) := by
  rw [val_main_v26_apply, val_main_call0_v2_apply, call0_v1_at, call0_v4_at, v25_at] <;> rfl

/-! ## The bin word as an index: a bin is never negative, so the wrap-around leaves it alone -/

theorem v29_at (i : S33554432.Idx) : val_main_v29 (F := Ideal) i = 0#32 := by
  rw [val_main_v29_apply] <;> rfl
theorem v31_at (i : S33554432.Idx) : val_main_v31 (F := Ideal) i = 10#32 := by
  rw [val_main_v31_apply] <;> rfl
theorem v33_at (k : Fin 33554432) :
    val_main_v33 (F := Ideal) p t (ix1 k) = binOf (ratio p t) (p (pos k)) (t (pos k)) := by
  rw [val_main_v33_apply, val_main_v30_apply, val_main_v32_apply, v26_at, v29_at, v31_at]
  exact Cert.RefOps.norm_index _ (binOf_lt _ _ _)
theorem v34_at (k : Fin 33554432) :
    val_main_v34 (F := Ideal) p t (ix2 k (0 : Fin 1)) = binOf (ratio p t) (p (pos k)) (t (pos k)) := by
  rw [val_main_v34_apply, idx34_pos, v33_at]

theorem v41_at (i : S33554432.Idx) : val_main_v41 (F := Ideal) i = 0#32 := by
  rw [val_main_v41_apply] <;> rfl
theorem v43_at (i : S33554432.Idx) : val_main_v43 (F := Ideal) i = 10#32 := by
  rw [val_main_v43_apply] <;> rfl
theorem v45_at (k : Fin 33554432) :
    val_main_v45 (F := Ideal) p t (ix1 k) = binOf (ratio p t) (p (pos k)) (t (pos k)) := by
  rw [val_main_v45_apply, val_main_v42_apply, val_main_v44_apply, v26_at, v41_at, v43_at]
  exact Cert.RefOps.norm_index _ (binOf_lt _ _ _)
theorem v46_at (k : Fin 33554432) :
    val_main_v46 (F := Ideal) p t (ix2 k (0 : Fin 1)) = binOf (ratio p t) (p (pos k)) (t (pos k)) := by
  rw [val_main_v46_apply, idx46_pos, v45_at]

/-! ## The table of counts and the number of non-empty bins -/

theorem v27_at (i : S10.Idx) : val_main_v27 (F := Ideal) i = 0 := by
  rw [val_main_v27_apply]
  exact Ideal.ofBits_zero_f32
theorem v28_at (k : Fin 33554432) :
    val_main_v28 (F := Ideal) p t lw (ix1 k) = b2f (inr (ratio p t) (p (pos k)) (t (pos k)) (lw (pos k))) := by
  rw [val_main_v28_apply, v21_at] <;> rfl

/-- The scatter-add of the range bits into ten zeros, at bin b: the count of bin b. -/
theorem v35_at (b : Fin 10) : val_main_v35 (F := Ideal) p t lw (ix1 b) = counts p t lw b := by
  unfold val_main_v35
  rw [Cert.RefOps.scatterAdd_bins scatter_S10_S33554432x1_S33554432_n_0_0_1 rfl rfl rfl rfl _ _ _
    (fun k => by rw [v34_at]; exact binOf_lt _ _ _) b, v27_at, zero_add]
  unfold counts Cert.Spec.count
  rw [← total_flat]
  refine Finset.sum_congr rfl fun k _ => ?_
  rw [v34_at, v28_at]

theorem v36_at (i : S10.Idx) : val_main_v36 (F := Ideal) i = w0 := by
  rw [val_main_v36_apply] <;> rfl
theorem v37_at (b : Fin 10) :
    val_main_v37 (F := Ideal) p t lw (ix1 b) = Ideal.cmp .ogt (counts p t lw b) w0 := by
  rw [val_main_v37_apply, v35_at, v36_at] <;> rfl

/-- The converted integer sum of the ten positivity bits: the number of non-empty bins. -/
theorem v40_eq : val_main_v40 (F := Ideal) p t lw = fun _ => nonempty (counts p t lw) := by
  unfold val_main_v40 val_main_v39 val_main_v38 val_main_c_13
  refine (Cert.RefOps.count_bits _ _ _ _).trans ?_
  funext _
  unfold nonempty
  refine Finset.sum_congr rfl fun b _ => ?_
  rw [v37_at]
theorem v53_eq : val_main_v53 (F := Ideal) p t lw = fun _ => nn p t lw := by
  funext i; rw [val_main_v53_apply, v40_eq] <;> rfl

/-! ## The weight and the loss -/

/-- The gather from the table at the element's bin: the count of the element's own bin. -/
theorem v47_at (k : Fin 33554432) :
    val_main_v47 (F := Ideal) p t lw (ix1 k) = pick (counts p t lw) (binOf (ratio p t) (p (pos k)) (t (pos k))) := by
  unfold val_main_v47
  have hk : (val_main_v46 (F := Ideal) p t (ix2 k (0 : Fin 1))).toNat < 10 := by
    rw [v46_at]; exact binOf_lt _ _ _
  rw [Cert.RefOps.gather_bins gather_S10_S33554432x1_S33554432_n_0_n_n_0_1_1 rfl rfl rfl rfl rfl rfl rfl _ _ k hk, v35_at]
  rw [fin_mk_congr (congrArg BitVec.toNat (v46_at p t k)) hk (binOf_lt _ _ _)]
  unfold pick
  rw [dif_pos (binOf_lt _ _ _)]

theorem v48_at (i : S33554432.Idx) : val_main_v48 (F := Ideal) i = w1 := by
  rw [val_main_v48_apply] <;> rfl
theorem v50_at (i : S33554432.Idx) : val_main_v50 (F := Ideal) lw i = tot lw := by
  rw [val_main_v50_apply, v18_eq]
theorem call1_v1_at (i : S33554432.Idx) : val_main_call1_v1 (F := Ideal) i = w0 := by
  rw [val_main_call1_v1_apply] <;> rfl
theorem v54_at (i : S33554432.Idx) : val_main_v54 (F := Ideal) p t lw i = nn p t lw := by
  rw [val_main_v54_apply, v53_eq]

theorem v55_at (k : Fin 33554432) :
    val_main_v55 (F := Ideal) p t lw (ix1 k)
      = weight (ratio p t) (tot lw) (nn p t lw) (counts p t lw) (p (pos k)) (t (pos k)) (lw (pos k)) := by
  rw [val_main_v55_apply, val_main_v52_apply, val_main_v51_apply, val_main_v49_apply, v21_at, v50_at, v47_at, v48_at,
    call1_v1_at, v54_at] <;> rfl

theorem v56_at (i : S33554432.Idx) : val_main_v56 (F := Ideal) i = w2 := by
  rw [val_main_v56_apply] <;> rfl
theorem v59_at (k : Fin 33554432) :
    val_main_v59 (F := Ideal) p t lw (ix1 k)
      = w2 * p (pos k) * t (pos k)
          * weight (ratio p t) (tot lw) (nn p t lw) (counts p t lw) (p (pos k)) (t (pos k)) (lw (pos k)) := by
  rw [val_main_v59_apply, val_main_v58_apply, val_main_v57_apply, v56_at, v0_at, v1_at, v55_at] <;> rfl

theorem v60_eq :
    val_main_v60 (F := Ideal) p t lw = fun _ => wsum p t lw (ratio p t) (tot lw) (nn p t lw) (counts p t lw) := by
  unfold val_main_v60 val_main_cst_20
  exact sum_stage (fun i => w2 * p i * t i * weight (ratio p t) (tot lw) (nn p t lw) (counts p t lw) (p i) (t i) (lw i)) _
    (v59_at p t lw)

/-- The last operation's value is the loss. -/
theorem v63_eq : val_main_v63 (F := Ideal) p t lw = fun _ => loss p t lw := by
  funext i
  rw [val_main_v63_apply, val_main_v62_apply, val_main_v61_apply, v60_eq, v7_eq] <;> rfl

end Stages

/-! ## The run -/

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v63)
          = (fun _ => Cert.Spec.loss (m ((c.tc : Thread nD τ).loc main_arg0)) (m ((c.tc : Thread nD τ).loc main_arg1))
              (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono
    (fun _ h c => ⟨(h c).1.trans ((val_main_v63_eq m c).trans (v63_eq _ _ _)), (h c).2⟩)
    (Cert.ReferenceIdeal.ValueP.run m ρ)

end Cert.RefSide

end
-- ==== Proof.lean ====
/-
  The kernel computes a histogram-weighted Dice loss of three f32[32, 1048576] arrays in three accumulating passes over
  64 column blocks (global sums; a ten-bin histogram of |ratio·p − t| under the ratio the sums give; the weighted sum
  under the histogram), with a few scalar host operations between the passes; the reference computes the same loss on
  the flattened arrays with whole-array sums, a scatter-add for the histogram and a gather for the per-element count.

  Over the extended reals both programs end at ONE function of the three argument arrays, `Cert.Spec.loss` (Spec.lean):
  a sum does not depend on the grouping of its terms (SumLemmas.lean), a masked sum over all elements is the sum over
  the elements the mask keeps, the select chain over ten bin tests is the table lookup, and the two ways of turning a
  one-bit word into 0 or 1 agree. The kernel's side: each region's output array after its last grid point is the
  running sum of the per-block statistics (Reg0/Reg1/Reg2.lean), the host operations between regions read at an index
  (Glue.lean), the run with the result named (KernelRun.lean) and the walk back from the result buffer
  (KernelValue.lean). The reference's side: its run read back stage by stage (RefSide.lean and the modules under it).
  Neither side uses the precondition: no step needs a finite input.

  The frames of the two kernel programs are the generated ones; the reference's frame is its run with the result
  dropped; the idealization rewrote nothing, so `preserves` is trivial.
-/
import proofs.«119492_j55929064129141_2_alg».proof.Defs
import proofs.«119492_j55929064129141_2_alg».proof.Proof.Gen.Kernel
import proofs.«119492_j55929064129141_2_alg».proof.Proof.Gen.Kernel.Frame
import proofs.«119492_j55929064129141_2_alg».proof.Proof.Gen.KernelIdeal
import proofs.«119492_j55929064129141_2_alg».proof.Proof.Gen.KernelIdeal.Frame
import proofs.«119492_j55929064129141_2_alg».proof.Proof.Gen.ReferenceIdeal
import proofs.«119492_j55929064129141_2_alg».proof.Proof.Gen.Pre_finite_inputs
import proofs.«119492_j55929064129141_2_alg».proof.Proof.KernelValue
import proofs.«119492_j55929064129141_2_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run with the result dropped. -/
theorem frame_ri : Cert.frame_ReferenceIdeal := fun m ρ _ =>
  (θ_run Cert.ReferenceIdeal.defs _ _).mono (fun _ h c => (h c).2) (Cert.RefSide.run m ρ)

theorem preserves : Cert.preserves_Kernel_KernelIdeal := trivial

/-- Both idealized programs end with the loss of the argument arrays in their result buffer, from memories that agree
    on the arguments. -/
theorem algebraic : Cert.algebraic_KernelIdeal_ReferenceIdeal := by
  intro m ρ m' ρ' _ hagree
  refine ⟨fun c => fun _ => Cert.Spec.loss (Cert.KernelIdeal.KV.P m c) (Cert.KernelIdeal.KV.T m c) (Cert.KernelIdeal.KV.LW m c), ?_, ?_⟩
  · exact (θ_run Cert.KernelIdeal.defs _ _).mono
      (fun _ h c => ⟨(h c).1.trans (Cert.KernelIdeal.KV.result m ρ c), (h c).2⟩)
      (Cert.KernelIdeal.RunV.run (F := Ideal) m ρ)
  · refine (θ_run Cert.ReferenceIdeal.defs _ _).mono (fun _ h c => ⟨?_, (h c).2⟩) (Cert.RefSide.run m' ρ')
    rw [(h c).1, (hagree c).1, (hagree c).2.1, (hagree c).2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
